-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S50000x64 : Shape := ⟨2, ![50000, 64]⟩
abbrev S5000x128 : Shape := ⟨2, ![5000, 128]⟩
abbrev S5000x64 : Shape := ⟨2, ![5000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 74
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S50000x64, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S64, .f32⟩
  | .hbm, ⟨64, _⟩ => ⟨S64, .f32⟩
  | .hbm, ⟨65, _⟩ => ⟨S_, .f32⟩
  | .hbm, ⟨66, _⟩ => ⟨S64, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S64, .f32⟩
  | .hbm, ⟨72, _⟩ => ⟨S64, .f32⟩
  | .hbm, ⟨73, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64, .f32⟩
  | .local _ .vmem, ⟨8, _⟩ => ⟨S64, .f32⟩
  | .local _ .vmem, ⟨9, _⟩ => ⟨S64, .f32⟩
  | .local _ .vmem, ⟨10, _⟩ => ⟨S5000x64, .f32⟩
  | .local _ .vmem, ⟨11, _⟩ => ⟨S5000x64, .f32⟩
  | .local _ .vmem, ⟨12, _⟩ => ⟨S64, .f32⟩
  | .local _ .vmem, ⟨13, _⟩ => ⟨S64, .f32⟩
  | .local _ .vmem, ⟨14, _⟩ => ⟨S64, .f32⟩
  | .local _ .vmem, ⟨15, _⟩ => ⟨S64, .f32⟩
  | .local _ .vmem, ⟨16, _⟩ => ⟨S64, .f32⟩
  | .local _ .vmem, ⟨17, _⟩ => ⟨S5000x64, .f32⟩
  | .local _ .vmem, ⟨18, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  inb_S64_S64_0 : ∀ a, (![0] : Fin 1 → Nat) a + S64.size a ≤ S64.size a
  h_S64 : 0 < S64.numel
  shapeCasts_S5000x64_S5000x64 : S5000x64.ShapeCasts S5000x64
  shapeCasts_S64_S1x64 : S64.ShapeCasts S1x64
  broadcasts_S1x64_S5000x64 : S1x64.Broadcasts S5000x64
  shapeCasts_S64_S64 : S64.ShapeCasts S64
  reduces_S5000x64_S64 : S5000x64.Reduces [0] S64
  bcast_S_S64 : S_.BroadcastsInDim S64 (![] : Fin 0 → Fin S64.rank)
  dot_S5000x128_S128x64_S5000x64_1_0_0_1_n_n_wf : DotDims.WF S5000x128 S128x64 S5000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64.size a ≤ S64.size a
  hwx2_1 : ∀ i : grid2.Coords, EltTy.bits .f32 = 32 ∨ (Rect.block (s := S64) S64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64.size a ≤ S64.size a
  hwx2_2 : ∀ i : grid2.Coords, EltTy.bits .f32 = 32 ∨ (Rect.block (s := S64) S64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64.size a ≤ S64.size a
  hwx2_5 : ∀ i : grid2.Coords, EltTy.bits .f32 = 32 ∨ (Rect.block (s := S64) S64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44_0) S64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44_1) S64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg4) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg5) S64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v51) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S50000x64 : Shape := ⟨2, ![50000, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 97
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S50000x64, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S64, .f32⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S50000x64, .f32⟩
  | .hbm, ⟨74, _⟩ => ⟨S50000x64, .f32⟩
  | .hbm, ⟨75, _⟩ => ⟨S50000x64, .f32⟩
  | .hbm, ⟨76, _⟩ => ⟨S_, .f32⟩
  | .hbm, ⟨77, _⟩ => ⟨S64, .f32⟩
  | .hbm, ⟨78, _⟩ => ⟨S_, .f32⟩
  | .hbm, ⟨79, _⟩ => ⟨S64, .f32⟩
  | .hbm, ⟨80, _⟩ => ⟨S64, .f32⟩
  | .hbm, ⟨81, _⟩ => ⟨S1x64, .f32⟩
  | .hbm, ⟨82, _⟩ => ⟨S50000x64, .f32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S50000x64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S1x64, .f32⟩
  | .hbm, ⟨92, _⟩ => ⟨S50000x64, .f32⟩
  | .hbm, ⟨93, _⟩ => ⟨S50000x64, .f32⟩
  | .hbm, ⟨94, _⟩ => ⟨S1x64, .f32⟩
  | .hbm, ⟨95, _⟩ => ⟨S50000x64, .f32⟩
  | .hbm, ⟨96, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run, with its RESULT kept.

  The program is three kernel launches among stretches of host lines.  Its run is described by a chain of buffer
  contents, one per boundary: the launch memory, then what the first launch's write-backs leave, then what each
  stretch of host lines computes from that, and so on to the last launch.  Every weakly fair execution terminates,
  without a fault, in a state whose unscoped buffers hold the last contents of that chain.  The frame keeps, of that
  state, only the six argument arrays (they end as launched); here the result array is kept as well: it ends holding
  the chain's last contents at the result's buffer.  What those contents ARE, as a function of the arguments, is the
  business of the modules that follow.
-/
import proofs.«116307_j12292196401321_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents, and the argument arrays end as launched. -/
theorem run_value : θ_run defs (onTc (τ := τ) (main (F := F))) ⟨m, fun _ => 0, ρ⟩ (fun r => ∀ c : Dev nD,
      r.2.mem ((c.tc : Thread nD τ).loc main_v51) = W7 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v51 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.Variance.lean ====
/-
  The one algebraic law that joins the two programs.

  For real numbers a_1 … a_n and a nonzero real N, write μ = (Σ a_i) · (1/N).  Then

      (Σ (a_i − μ)²) · (1/N)  =  (Σ a_i²) · (1/N) − μ · μ      whenever the number of terms is N,

  the two textbook forms of the (biased) variance.  Expanding the square gives
  Σ a_i² − 2 μ Σ a_i + n μ²; with Σ a_i = N μ and n = N the last two terms collapse to − N μ².
  The quotients are written as products with 1/N because that is how a quotient by a nonzero real reads on
  the extended reals.
-/
import Mathlib.Algebra.BigOperators.Field
import Mathlib.Algebra.Order.BigOperators.Ring.Finset
import Mathlib.Data.Real.Basic
import Mathlib.Tactic.Ring
import Mathlib.Tactic.FieldSimp
import Mathlib.Tactic.Linarith

namespace GcnNorm

open Finset

/-- The centred and the raw-moment forms of the biased variance agree over the reals. -/
theorem variance_forms {ι : Type*} (s : Finset ι) (a : ι → ℝ) (N : ℝ) (hN : N ≠ 0)
    (hcard : (s.card : ℝ) = N) :
    (∑ i ∈ s, (a i - (∑ j ∈ s, a j) * (1 / N)) * (a i - (∑ j ∈ s, a j) * (1 / N))) * (1 / N)
      = (∑ i ∈ s, a i * a i) * (1 / N) - ((∑ j ∈ s, a j) * (1 / N)) * ((∑ j ∈ s, a j) * (1 / N)) := by
  set S := ∑ j ∈ s, a j with hS
  have expand : ∀ i, (a i - S * (1 / N)) * (a i - S * (1 / N))
      = a i * a i - 2 * (S * (1 / N)) * a i + (S * (1 / N)) * (S * (1 / N)) := by
    intro i; ring
  simp only [expand]
  rw [Finset.sum_add_distrib, Finset.sum_sub_distrib, ← Finset.mul_sum, ← hS, Finset.sum_const, nsmul_eq_mul, hcard]
  field_simp
  ring

end GcnNorm
-- ==== Proof.Spec.lean ====
/-
  What both programs compute, stated once over the extended reals, and the law that joins their two spellings.

  Write A for the aggregated node features (50000 nodes by 64 channels), b for the bias, γ and β for the affine
  parameters.  Both programs form the activation

      a[n, c] = tanh (A[n, c] + b[c]),

  its column mean μ[c] = (Σ_n a[n, c]) / 50000, a variance v[c], and return

      γ[c] · (a[n, c] − μ[c]) · rsqrt (v[c] + ε) + β[c].

  They differ only in the variance: one program takes the raw second moment (Σ_n a[n, c]²) / 50000 − μ[c]², the other
  the centred one (Σ_n (a[n, c] − μ[c])²) / 50000.  A hyperbolic tangent is a real number at every extended real
  (−1 and 1 at the two infinities), so every a[n, c] is real, the sums are sums of reals, the divisor's pattern
  denotes the real 50000 — the number of terms — and the two variances are the two textbook forms of one real number.
-/
import Idealize.ShloMosaic.PureOps.Ideal
import Idealize.ShloMosaic.Lib.ValueIdx
import proofs.«116307_j12292196401321_1_alg».proof.Proof.Variance

noncomputable section

namespace GcnNorm

open Idealize.ShloMosaic Idealize.ShloMosaic.ValueIdx

/-- Nodes by channels, and channels. -/
abbrev Nodes : Shape := ⟨2, ![50000, 64]⟩
abbrev Chan : Shape := ⟨1, ![64]⟩

/-- The divisor both programs spell (the pattern of 50000.0) and the epsilon both spell (the same pattern on both
    sides, never evaluated). -/
def cnt : EReal := Ideal.ofBits .f32 0x47435000#32
def eps : EReal := Ideal.ofBits .f32 0x3727C5AC#32

/-- The activation at node `n`, channel `c`. -/
def act (A : Nodes.Idx → EReal) (b : Chan.Idx → EReal) (n : Fin 50000) (c : Fin 64) : EReal :=
  Ideal.tanh (A (ix2 n c) + b (ix1 c))

/-- The column sums of the activation and of its square. -/
def colSum (A : Nodes.Idx → EReal) (b : Chan.Idx → EReal) (c : Fin 64) : EReal :=
  ∑ n : Fin 50000, act A b n c
def colSumSq (A : Nodes.Idx → EReal) (b : Chan.Idx → EReal) (c : Fin 64) : EReal :=
  ∑ n : Fin 50000, act A b n c * act A b n c

/-- The column mean. -/
def mean (A : Nodes.Idx → EReal) (b : Chan.Idx → EReal) (c : Fin 64) : EReal :=
  Ideal.div (colSum A b c) cnt

/-- The variance by raw moments, and the centred variance. -/
def varRaw (A : Nodes.Idx → EReal) (b : Chan.Idx → EReal) (c : Fin 64) : EReal :=
  Ideal.div (colSumSq A b c) cnt - mean A b c * mean A b c
def varCen (A : Nodes.Idx → EReal) (b : Chan.Idx → EReal) (c : Fin 64) : EReal :=
  Ideal.div (∑ n : Fin 50000, (act A b n c - mean A b c) * (act A b n c - mean A b c)) cnt

/-- The normalized, affinely transformed activation, for a given variance `v`. -/
def normed (v : Fin 64 → EReal) (A : Nodes.Idx → EReal) (b g be : Chan.Idx → EReal) (n : Fin 50000) (c : Fin 64) : EReal :=
  g (ix1 c) * (act A b n c - mean A b c) * Ideal.rsqrt (v c + eps) + be (ix1 c)

/-- The last step alone, with the mean and the variance given as arrays over the channels: what the third kernel
    computes from its six operands. -/
def applied (A : Nodes.Idx → EReal) (b μ v g be : Chan.Idx → EReal) (n : Fin 50000) (c : Fin 64) : EReal :=
  g (ix1 c) * (Ideal.tanh (A (ix2 n c) + b (ix1 c)) - μ (ix1 c)) * Ideal.rsqrt (v (ix1 c) + eps) + be (ix1 c)

/-- With the column mean and a variance `v` for those arrays, the last step is `normed v`. -/
theorem applied_mean (v : Fin 64 → EReal) (A : Nodes.Idx → EReal) (b g be : Chan.Idx → EReal) (n : Fin 50000) (c : Fin 64) :
    applied A b (fun j => mean A b (j 0)) (fun j => v (j 0)) g be n c = normed v A b g be n c := rfl

/-- The divisor's pattern denotes the real 50000. -/
theorem cnt_eq : cnt = ((50000 : ℝ) : EReal) := by
  unfold cnt
  simp [Ideal.ofBits, Ideal.ieee, -EReal.coe_mul]; norm_num

/-- A hyperbolic tangent is real at every extended real. -/
theorem tanh_real (x : EReal) : ∃ r : ℝ, Ideal.tanh x = (r : EReal) := by
  induction x using EReal.rec with
  | bot => exact ⟨-1, by rw [Ideal.tanh_bot]; norm_num⟩
  | top => exact ⟨1, by rw [Ideal.tanh_top]; norm_num⟩
  | coe r => exact ⟨Real.tanh r, Ideal.tanh_coe r⟩

/-- A finite sum of reals, read on the extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The two variances are one extended real: both are the reading of one real number. -/
theorem varRaw_eq_varCen (A : Nodes.Idx → EReal) (b : Chan.Idx → EReal) (c : Fin 64) :
    varRaw A b c = varCen A b c := by
  choose r hr using fun n : Fin 50000 => tanh_real (A (ix2 n c) + b (ix1 c))
  have hact : ∀ n, act A b n c = (r n : EReal) := fun n => hr n
  have h50 : (50000 : ℝ) ≠ 0 := by norm_num
  have hS : colSum A b c = ((∑ n : Fin 50000, r n : ℝ) : EReal) := by
    unfold colSum; rw [coe_sum]; exact Finset.sum_congr rfl fun n _ => hact n
  have hQ : colSumSq A b c = ((∑ n : Fin 50000, r n * r n : ℝ) : EReal) := by
    unfold colSumSq; rw [coe_sum]
    exact Finset.sum_congr rfl fun n _ => by rw [hact n, EReal.coe_mul]
  have hμ : mean A b c = (((∑ n : Fin 50000, r n) * (1 / 50000) : ℝ) : EReal) := by
    unfold mean; rw [hS, cnt_eq, Ideal.div_coe h50, ← EReal.coe_mul]
  have hC : (∑ n : Fin 50000, (act A b n c - mean A b c) * (act A b n c - mean A b c))
      = ((∑ n : Fin 50000, (r n - (∑ k : Fin 50000, r k) * (1 / 50000)) * (r n - (∑ k : Fin 50000, r k) * (1 / 50000)) : ℝ) : EReal) := by
    rw [coe_sum]
    exact Finset.sum_congr rfl fun n _ => by rw [hact n, hμ, ← EReal.coe_sub, ← EReal.coe_mul]
  unfold varRaw varCen
  rw [hC, hQ, hμ, cnt_eq, Ideal.div_coe h50, Ideal.div_coe h50, ← EReal.coe_mul, ← EReal.coe_mul, ← EReal.coe_mul,
    ← EReal.coe_sub]
  refine congrArg _ ?_
  exact (variance_forms Finset.univ r 50000 h50 (by simp)).symm

/-- Hence the two programs' results agree entry by entry. -/
theorem normed_varRaw_eq (A : Nodes.Idx → EReal) (b g be : Chan.Idx → EReal) (n : Fin 50000) (c : Fin 64) :
    normed (varRaw A b) A b g be n c = normed (varCen A b) A b g be n c := by
  unfold normed; rw [varRaw_eq_varCen]

/-- A sum over the 50000 nodes, cut into 10 consecutive blocks of 5000. -/
theorem sum_blocks (f : Fin 50000 → EReal) :
    ∑ n : Fin 50000, f n
      = ∑ t : Fin 10, ∑ q : Fin 5000, f ⟨5000 * t.val + q.val, by have := t.isLt; have := q.isLt; omega⟩ := by
  rw [← Finset.sum_product', Finset.univ_product_univ]
  refine (Fintype.sum_equiv (finProdFinEquiv (m := 10) (n := 5000)) _ _ fun p => ?_).symm
  refine congrArg f (Fin.ext ?_)
  simp [finProdFinEquiv, Nat.add_comm]

end GcnNorm
-- ==== Proof.Between.lean ====
/-
  What each launch finds in its operands.

  The program's run is a chain of buffer contents (the launch memory; after the first launch; after the host lines
  that aggregate over the edges; after the second launch; after the host lines that form the mean and the variance;
  after the third launch).  This module reads that chain at the buffers the launches use:

  * the third launch's mean operand is the second launch's first output divided by the count, entry by entry, and its
    variance operand is the second output divided by the count minus the square of that mean;
  * its other operands — the aggregated features, the bias, the scale and the shift — are what they were before:
    no host line in between and no launch writes them;
  * the second launch's bias operand is the launched bias;
  * each launch's output array ends at what its write-backs leave.
-/
import proofs.«116307_j12292196401321_1_alg».proof.Proof.Gen.KernelIdeal.Frame
import proofs.«116307_j12292196401321_1_alg».proof.Proof.Spec
import Idealize.ShloMosaic.Lib.StableHlo.Run

set_option maxRecDepth 16384

noncomputable section

namespace Cert.KernelIdeal.Between

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The host lines between the second and the third launch -/

/-- The mean operand, as the host lines compute it from the second launch's first output. -/
theorem mean_stage : (W6 m ρ c (Proc.devRef .tc main_v46) : S64.Idx → EReal)
    = Host.divf (F := Ideal) (W5 m ρ c (Proc.devRef .tc main_v44_0))
        (broadcastInDim S64 ![] bcast_S_S64 (constant (F := Ideal) S_ .f32 0x47435000#32)) := by
  show StableHlo.after hostOps2 (W5 m ρ c) (Proc.devRef .tc main_v46) = _
  after_results

/-- The variance operand, as the host lines compute it from the second launch's two outputs. -/
theorem var_stage : (W6 m ρ c (Proc.devRef .tc main_v50) : S64.Idx → EReal)
    = subf (F := Ideal)
        (Host.divf (F := Ideal) (W5 m ρ c (Proc.devRef .tc main_v44_1))
          (broadcastInDim S64 ![] bcast_S_S64 (constant (F := Ideal) S_ .f32 0x47435000#32)))
        (mulf (F := Ideal)
          (Host.divf (F := Ideal) (W5 m ρ c (Proc.devRef .tc main_v44_0))
            (broadcastInDim S64 ![] bcast_S_S64 (constant (F := Ideal) S_ .f32 0x47435000#32)))
          (Host.divf (F := Ideal) (W5 m ρ c (Proc.devRef .tc main_v44_0))
            (broadcastInDim S64 ![] bcast_S_S64 (constant (F := Ideal) S_ .f32 0x47435000#32)))) := by
  show StableHlo.after hostOps2 (W5 m ρ c) (Proc.devRef .tc main_v50) = _
  after_results

/-- A quotient by the broadcast count, at an entry. -/
theorem div_count_apply (x : S64.Idx → EReal) (j : S64.Idx) :
    Host.divf (F := Ideal) x (broadcastInDim S64 ![] bcast_S_S64 (constant (F := Ideal) S_ .f32 0x47435000#32)) j
      = Ideal.div (x j) GcnNorm.cnt := by
  simp only [Host.divf, broadcastInDim, constant, GcnNorm.cnt, Ideal.hostDivf_def, Ideal.ofBits_def]

/-- The mean operand at an entry: the first output's entry over the count. -/
theorem mean_entry (j : S64.Idx) : (W6 m ρ c (Proc.devRef .tc main_v46) : S64.Idx → EReal) j
    = Ideal.div ((W5 m ρ c (Proc.devRef .tc main_v44_0) : S64.Idx → EReal) j) GcnNorm.cnt := by
  rw [mean_stage]; exact div_count_apply _ j

/-- The variance operand at an entry: the second output's entry over the count, minus the squared mean. -/
theorem var_entry (j : S64.Idx) : (W6 m ρ c (Proc.devRef .tc main_v50) : S64.Idx → EReal) j
    = Ideal.div ((W5 m ρ c (Proc.devRef .tc main_v44_1) : S64.Idx → EReal) j) GcnNorm.cnt
      - Ideal.div ((W5 m ρ c (Proc.devRef .tc main_v44_0) : S64.Idx → EReal) j) GcnNorm.cnt
        * Ideal.div ((W5 m ρ c (Proc.devRef .tc main_v44_0) : S64.Idx → EReal) j) GcnNorm.cnt := by
  rw [var_stage]
  show FloatOps.subf (F := Ideal) _ (FloatOps.mulf (F := Ideal) _ _) = _
  rw [div_count_apply, div_count_apply]
  rfl

/-! ## Buffers that nothing in between writes -/

/-- The aggregated features at the third launch are those at the second. -/
theorem agg_kept : W6 m ρ c (Proc.devRef .tc main_v43) = W4 m ρ c (Proc.devRef .tc main_v43) :=
  calc W6 m ρ c (Proc.devRef .tc main_v43)
    _ = W5 m ρ c (Proc.devRef .tc main_v43) := StableHlo.after_of_forall_not_mem (b := Proc.devRef .tc main_v43) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W4 m ρ c (Proc.devRef .tc main_v43) := (W5_arr m ρ c 0).trans (((dat1 (V4 m ρ) c).arrAt_in 0 rfl _).trans (A_eq1 (V4 m ρ) c 0))

/-- The bias at the third launch is the launched bias. -/
theorem bias_at3 : W6 m ρ c (Proc.devRef .tc main_arg3) = m ((c : Thread nD τ).loc main_arg3) :=
  ((W7_arr m ρ c 1).trans (((dat2 (V6 m ρ) c).arrAt_in 1 rfl _).trans (A_eq2 (V6 m ρ) c 1))).symm.trans (W7_main_arg3 m ρ c)

/-- The scale at the third launch is the launched scale. -/
theorem scale_at3 : W6 m ρ c (Proc.devRef .tc main_arg4) = m ((c : Thread nD τ).loc main_arg4) :=
  ((W7_arr m ρ c 4).trans (((dat2 (V6 m ρ) c).arrAt_in 4 rfl _).trans (A_eq2 (V6 m ρ) c 4))).symm.trans (W7_main_arg4 m ρ c)

/-- The shift at the third launch is the launched shift. -/
theorem shift_at3 : W6 m ρ c (Proc.devRef .tc main_arg5) = m ((c : Thread nD τ).loc main_arg5) :=
  ((W7_arr m ρ c 5).trans (((dat2 (V6 m ρ) c).arrAt_in 5 rfl _).trans (A_eq2 (V6 m ρ) c 5))).symm.trans (W7_main_arg5 m ρ c)

/-- The bias at the second launch is the launched bias. -/
theorem bias_at2 : W4 m ρ c (Proc.devRef .tc main_arg3) = m ((c : Thread nD τ).loc main_arg3) :=
  calc W4 m ρ c (Proc.devRef .tc main_arg3)
    _ = W5 m ρ c (Proc.devRef .tc main_arg3) := ((W5_arr m ρ c 1).trans (((dat1 (V4 m ρ) c).arrAt_in 1 rfl _).trans (A_eq1 (V4 m ρ) c 1))).symm
    _ = W6 m ρ c (Proc.devRef .tc main_arg3) := (StableHlo.after_of_forall_not_mem (b := Proc.devRef .tc main_arg3) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = m ((c : Thread nD τ).loc main_arg3) := bias_at3 m ρ c

/-! ## The launches' outputs -/

/-- The program's result is the third launch's output array after its write-backs. -/
theorem result_is : W7 m ρ c (Proc.devRef .tc main_v51) = (dat2 (V6 m ρ) c).arrAt 6 cfg2.N := W7_arr m ρ c 6

/-- The second launch's outputs after their write-backs. -/
theorem sum_is : W5 m ρ c (Proc.devRef .tc main_v44_0) = (dat1 (V4 m ρ) c).arrAt 2 cfg1.N := W5_arr m ρ c 2
theorem sumsq_is : W5 m ρ c (Proc.devRef .tc main_v44_1) = (dat1 (V4 m ρ) c).arrAt 3 cfg1.N := W5_arr m ρ c 3

/-- The first launch's output after its write-backs. -/
theorem product_is : W1 m ρ c (Proc.devRef .tc main_v0) = (dat0 (V0 m ρ) c).arrAt 2 cfg0.N := W1_arr m ρ c 2

end Cert.KernelIdeal.Between

end
-- ==== Proof.Aggregate.lean ====
/-
  The aggregation over the edges, as one function shared by the two programs.

  Between the projection h = x · W and the activation, both programs run the same host lines.  From the edge list
  they form the source and the target of every edge, a self loop appended for every node (`sources`, `targets`);
  from the targets each node's in-degree, and its inverse square root where the degree is positive, else zero
  (`degreeFactor`); then every edge's weight is the product of its two end points' factors, the edge's source row of h
  is gathered and scaled by the weight, and the scaled rows are scatter-added to the edges' target rows (`mix`; an
  index below zero is first moved up by the number of nodes, as the gather's lowering does).

  Nothing in this proof depends on what those lines compute: they are the same text in both programs, so the
  aggregated features are the same function `agg` of h and of the edge list on both sides, and the two sides agree as soon as
  the two projections do.  The reference's aggregated features are `agg` of its projection by unfolding its stages.
  The kernel's are `agg` of the first launch's output because its host lines, read back one stretch at a time, are these
  operations: the lines up to the two joined index arrays, the lines up to the degree factor, and the rest.
-/
import proofs.«116307_j12292196401321_1_alg».proof.Proof.Gen.KernelIdeal.Frame
import proofs.«116307_j12292196401321_1_alg».proof.Proof.ReadPatched
import Idealize.ShloMosaic.Lib.StableHlo.Run

set_option maxRecDepth 16384

noncomputable section

namespace Cert.KernelIdeal.Aggregate

open Idealize.ShloMosaic Idealize.ShloMosaic.TcCoe Idealize.SL.Sem Idealize.ShloMosaic.StableHlo
open Cert.KernelIdeal Cert.KernelIdeal.Facts₀ Cert.KernelIdeal.Facts

variable {F : FTy → Type} [FloatOps F]

/-- Row `r` of the edge list followed by the node numbers: the edges' end points with a self loop per node. -/
def sources (e : (⟨S2x800000, .i32⟩ : BufTy).Contents (Elt F)) : (⟨S850000, .i32⟩ : BufTy).Contents (Elt F) :=
  concatenate S850000 0 [⟨S800000, shapeCast _ (extractStridedSlice S1x800000 ![0, 0] e slices_S2x800000_S1x800000_0_0) shapeCasts_S1x800000_S800000⟩,
    ⟨S50000, iotaInDim S50000 32 0⟩] concatenates_S800000_S50000_S850000_d0
def targets (e : (⟨S2x800000, .i32⟩ : BufTy).Contents (Elt F)) : (⟨S850000, .i32⟩ : BufTy).Contents (Elt F) :=
  concatenate S850000 0 [⟨S800000, shapeCast _ (extractStridedSlice S1x800000 ![1, 0] e slices_S2x800000_S1x800000_1_0) shapeCasts_S1x800000_S800000⟩,
    ⟨S50000, iotaInDim S50000 32 0⟩] concatenates_S800000_S50000_S850000_d0

/-- Each node's in-degree (a one scatter-added per edge to its target), and from it the factor: the inverse square
    root where the degree is positive, zero elsewhere. -/
def degreeFactor (dst : (⟨S850000, .i32⟩ : BufTy).Contents (Elt F)) : (⟨S50000, .f32⟩ : BufTy).Contents (Elt F) :=
  select
    (cmpf .ogt
      (Host.scatterAdd scatter_S50000_S850000x1_S850000_n_0_0_1
        (broadcastInDim S50000 ![] bcast_S_S50000 (constant (F := F) S_ .f32 0x00000000#32))
        (broadcastInDim S850000x1 ![0] bcast_S850000_S850000x1_0 dst)
        (broadcastInDim S850000 ![] bcast_S_S850000 (constant (F := F) S_ .f32 0x3F800000#32)))
      (broadcastInDim S50000 ![] bcast_S_S50000 (constant (F := F) S_ .f32 0x00000000#32)))
    (Host.rsqrt
      (Host.scatterAdd scatter_S50000_S850000x1_S850000_n_0_0_1
        (broadcastInDim S50000 ![] bcast_S_S50000 (constant (F := F) S_ .f32 0x00000000#32))
        (broadcastInDim S850000x1 ![0] bcast_S850000_S850000x1_0 dst)
        (broadcastInDim S850000 ![] bcast_S_S850000 (constant (F := F) S_ .f32 0x3F800000#32))))
    (broadcastInDim S50000 ![] bcast_S_S50000 (id (constant (F := F) S_ .f32 0x00000000#32)))

/-- An index below zero moved up by the number of nodes. -/
def wrapped (x : (⟨S850000, .i32⟩ : BufTy).Contents (Elt F)) : (⟨S850000, .i32⟩ : BufTy).Contents (Elt F) :=
  select (cmpi .slt x (broadcastInDim S850000 ![] bcast_S_S850000 (constantI S_ 32 0#32)))
    (addi x (broadcastInDim S850000 ![] bcast_S_S850000 (constantI S_ 32 50000#32))) x

/-- Gather the source rows of `h`, scale each by its edge's weight (the product of the two end points' factors), and
    scatter-add to the target rows. -/
def mix (h : (⟨S50000x64, .f32⟩ : BufTy).Contents (Elt F)) (src dst : (⟨S850000, .i32⟩ : BufTy).Contents (Elt F))
    (dinv : (⟨S50000, .f32⟩ : BufTy).Contents (Elt F)) : (⟨S50000x64, .f32⟩ : BufTy).Contents (Elt F) :=
  Host.scatterAdd scatter_S50000x64_S850000x1_S850000x64_1_0_0_1
    (broadcastInDim S50000x64 ![] bcast_S_S50000x64 (constant (F := F) S_ .f32 0x00000000#32))
    (broadcastInDim S850000x1 ![0] bcast_S850000_S850000x1_0 dst)
    (mulf
      (Host.gather gather_S50000x64_S850000x1_S850000x64_1_0_n_n_0_1_164 h
        (broadcastInDim S850000x1 ![0] bcast_S850000_S850000x1_0 (wrapped (F := F) src)))
      (broadcastInDim S850000x64 ![0, 1] bcast_S850000x1_S850000x64_0_1
        (broadcastInDim S850000x1 ![0] bcast_S850000_S850000x1_0
          (mulf
            (Host.gather gather_S50000_S850000x1_S850000_n_0_n_n_0_1_1 dinv
              (broadcastInDim S850000x1 ![0] bcast_S850000_S850000x1_0 (wrapped (F := F) src)))
            (Host.gather gather_S50000_S850000x1_S850000_n_0_n_n_0_1_1 dinv
              (broadcastInDim S850000x1 ![0] bcast_S850000_S850000x1_0 (wrapped (F := F) dst)))))))

/-- The edge aggregation of the projected features `h` over the edge list `e`. -/
def agg (h : (⟨S50000x64, .f32⟩ : BufTy).Contents (Elt F)) (e : (⟨S2x800000, .i32⟩ : BufTy).Contents (Elt F)) :
    (⟨S50000x64, .f32⟩ : BufTy).Contents (Elt F) :=
  mix (F := F) h (sources (F := F) e) (targets (F := F) e) (degreeFactor (F := F) (targets (F := F) e))

/-- The reference's aggregated features are `agg` of its projection: its stages, unfolded, are these operations. -/
theorem ref_agg (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S128x64, .f32⟩ : BufTy).Contents (Elt Ideal)) :
    Cert.ReferenceIdeal.ReadP.val_main_v43 (F := Ideal) x0 x1 x2
      = agg (F := Ideal) (Cert.ReferenceIdeal.ReadP.val_main_v0 (F := Ideal) x0 x2) x1 := rfl

end Cert.KernelIdeal.Aggregate

end
-- ==== Proof.AggregateKernel.lean ====
/-
  The kernel's host lines between its first and second launch compute the shared aggregation.

  The lines are read back in three cuts, each from ARBITRARY buffer contents, so that each cut is a short
  computation over names:
  * the first seven lines leave the edges' sources and targets (with the self loops) in two buffers, and touch
    neither the first launch's output nor the edge list;
  * the next fourteen lines (through the small function that selects where the degree is positive) leave the degree
    factor of the targets, and touch none of the three buffers above;
  * the last thirty-five lines leave, in the aggregated-features buffer, `mix` of those four buffers.
  Chained from the contents the first launch leaves, with the edge list still as launched, this is `agg` of the first
  launch's output and the launched edge list.
-/
import proofs.«116307_j12292196401321_1_alg».proof.Proof.Aggregate

set_option maxRecDepth 16384

noncomputable section

namespace Cert.KernelIdeal.Aggregate

open Idealize.ShloMosaic Idealize.ShloMosaic.TcCoe Idealize.SL.Sem Idealize.ShloMosaic.StableHlo
open Cert.KernelIdeal Cert.KernelIdeal.Facts₀ Cert.KernelIdeal.Facts
open Cert.KernelIdeal.Gen (hostOps1 hostOps1_1 hostOps1_2 W1 W4 W1_of_ne)

/-- Running two stretches of host lines one after the other is running their concatenation. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {F : FTy → Type} [FloatOps F]

/-- The first seven host lines after the first launch: through the two joined index arrays. -/
abbrev linesToJoined : List (HloOp τ sig (Elt F)) :=
  [ StableHlo.nullary main_v1 (iotaInDim S50000 32 0),
    StableHlo.unary main_arg1 main_v2 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v2 main_v3 rfl shapeCasts_S1x800000_S800000,
    StableHlo.binary main_v3 main_v1 main_v4 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v5 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v5 main_v6 rfl shapeCasts_S1x800000_S800000,
    StableHlo.binary main_v6 main_v1 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- The next eleven: through the inverse square root of the degree. -/
abbrev linesToRoot : List (HloOp τ sig (Elt F)) :=
  [ StableHlo.nullary main_cst (constant S_ .f32 0x3F800000#32),
    StableHlo.unary main_cst main_v8 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v9 (broadcastInDim S50000 ![] bcast_S_S50000 : (⟨S_, .f32⟩ : BufTy).Contents (Elt F) → (⟨S50000, .f32⟩ : BufTy).Contents (Elt F)),
    StableHlo.unary main_v7 main_v10 (broadcastInDim S850000x1 ![0] bcast_S850000_S850000x1_0 : (⟨S850000, .i32⟩ : BufTy).Contents (Elt F) → (⟨S850000x1, .i32⟩ : BufTy).Contents (Elt F)),
    StableHlo.ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v12 (broadcastInDim S50000 ![] bcast_S_S50000 : (⟨S_, .f32⟩ : BufTy).Contents (Elt F) → (⟨S50000, .f32⟩ : BufTy).Contents (Elt F)),
    StableHlo.binary main_v11 main_v12 main_v13 (cmpf .ogt : (⟨S50000, .f32⟩ : BufTy).Contents (Elt F) → (⟨S50000, .f32⟩ : BufTy).Contents (Elt F) → (⟨S50000, .i1⟩ : BufTy).Contents (Elt F)),
    StableHlo.unary main_v11 main_v14 (Host.rsqrt : (⟨S50000, .f32⟩ : BufTy).Contents (Elt F) → (⟨S50000, .f32⟩ : BufTy).Contents (Elt F)),
    StableHlo.nullary main_cst_2 (constant S_ .f32 0x00000000#32) ]

/-- Together they are the first stretch. -/
theorem first_stretch : (hostOps1 : List (HloOp τ sig (Elt F))) = linesToJoined ++ linesToRoot := rfl

section Cuts

variable (W : Valuation τ sig (Elt F))

/-- After the first seven lines: the sources, the targets, and the first launch's output untouched. -/
theorem joined_src : (after linesToJoined W (Proc.devRef .tc main_v4) : (⟨S850000, .i32⟩ : BufTy).Contents (Elt F))
    = sources (F := F) (W (Proc.devRef .tc main_arg1)) := by
  after_results
  rfl
theorem joined_dst : (after linesToJoined W (Proc.devRef .tc main_v7) : (⟨S850000, .i32⟩ : BufTy).Contents (Elt F))
    = targets (F := F) (W (Proc.devRef .tc main_arg1)) := by
  after_results
  rfl
theorem joined_keeps : after linesToJoined W (Proc.devRef .tc main_v0) = W (Proc.devRef .tc main_v0) := by
  after_results

/-- After the next fourteen lines: the degree factor of the targets, the three buffers untouched. -/
theorem factor_found : (after hostOps1_1 (after linesToRoot W) (Proc.devRef .tc main_v15) : (⟨S50000, .f32⟩ : BufTy).Contents (Elt F))
    = degreeFactor (F := F) (W (Proc.devRef .tc main_v7)) := by
  after_results_simp <;> rfl
theorem factor_keeps_out : after hostOps1_1 (after linesToRoot W) (Proc.devRef .tc main_v0) = W (Proc.devRef .tc main_v0) := by
  after_results_simp
theorem factor_keeps_src : after hostOps1_1 (after linesToRoot W) (Proc.devRef .tc main_v4) = W (Proc.devRef .tc main_v4) := by
  after_results_simp
theorem factor_keeps_dst : after hostOps1_1 (after linesToRoot W) (Proc.devRef .tc main_v7) = W (Proc.devRef .tc main_v7) := by
  after_results_simp

set_option maxHeartbeats 4000000 in
/-- After the last thirty-five lines: the aggregated features. -/
theorem mixed : (after hostOps1_2 W (Proc.devRef .tc main_v43) : (⟨S50000x64, .f32⟩ : BufTy).Contents (Elt F))
    = mix (F := F) (W (Proc.devRef .tc main_v0)) (W (Proc.devRef .tc main_v4)) (W (Proc.devRef .tc main_v7))
        (W (Proc.devRef .tc main_v15)) := by
  after_results_simp <;> rfl

end Cuts

variable (m : (ℓ : Loc nD τ sig) → Buf (Elt Ideal) ℓ) (ρ : Dev nD → PrngReg) (c : Dev nD)

/-- The edge list the kernel's host lines read is the launched one: the first launch does not touch it. -/
theorem edges_kept : W1 m ρ c (Proc.devRef .tc main_arg1) = m ((c : Thread nD τ).loc main_arg1) :=
  W1_of_ne m ρ c main_arg1 (by decide)

/-- The kernel's aggregated features, at the second launch, are `agg` of the first launch's output and the launched
    edge list. -/
theorem kernel_agg : (W4 m ρ c (Proc.devRef .tc main_v43) : S50000x64.Idx → EReal)
    = agg (F := Ideal) (W1 m ρ c (Proc.devRef .tc main_v0)) (m ((c : Thread nD τ).loc main_arg1)) := by
  show after hostOps1_2 (after hostOps1_1 (after hostOps1 (W1 m ρ c))) (Proc.devRef .tc main_v43) = _
  rw [first_stretch, after_append, mixed, factor_found, factor_keeps_out, factor_keeps_src, factor_keeps_dst,
    joined_src, joined_dst, joined_keeps, edges_kept]
  rfl

end Cert.KernelIdeal.Aggregate

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.Project.lean ====
/-
  The first kernel, from its ten blocks to the whole array.

  The first kernel multiplies the node features `x` (50000 nodes by 128 input channels) by the weight matrix `W` (128 by
  64) over ten grid points.  At point `t` it is handed rows `5000·t … 5000·t + 4999` of `x` and the whole of `W`,
  forms the 5000 by 64 product of the two into a zero accumulator, and writes it back as rows
  `5000·t … 5000·t + 4999` of the output.  On the extended reals the narrowing of the operands' float format is the
  identity and the accumulator contributes the real zero, so row `p`, channel `q` of the block's product is the plain sum
  `Σ_k x[5000·t + p, k] · W[k, q]` over the 128 input channels: it depends on one row of `x` — the one of its own node —
  and on one column of `W`, and on nothing else.

  Every node `n` lies in exactly one block, the one at point `n / 5000`, so the ten write-backs fill the output, and
  the output array after the ten points is the matrix product `x · W`, entry by entry.

  The steps: which coordinates of the two operands the product's dimension numbers read (`lhs_row` … `rhs_col`); the
  product at one entry of a block (`payload_entry`); where each window's block sits in its array at a point
  (`block_index`, and the reads `x_read`, `w_read`); what a point writes back is its block of the whole product
  (`flushed_eq`); the blocks cover the array (`covered`); the array (`product_array`).
-/
import proofs.«116307_j12292196401321_1_alg».proof.Proof.Gen.KernelIdeal.Frame
import proofs.«116307_j12292196401321_1_alg».proof.Proof.Spec
import proofs.«116307_j12292196401321_1_alg».proof.Proof.LibPlainProduct
import Idealize.ShloMosaic.Lib.Pipeline.Value

noncomputable section

namespace Cert.KernelIdeal.Project

open Cert.KernelIdeal Cert.KernelIdeal.Gen Idealize.ShloMosaic Idealize.ShloMosaic.TcCoe Idealize.SL.Sem
open Idealize.ShloMosaic.ValueIdx
open Idealize.ShloMosaic.Pipeline (Dat)

/-! ## The product of the two arrays -/

/-- Entry `(n, q)` of the matrix product of node features `x` (50000 by 128) and weights `w` (128 by 64): the sum over
    the 128 input channels of `x[n, k] · w[k, q]`. -/
def product (x : (⟨2, ![50000, 128]⟩ : Shape).Idx → EReal) (w : (⟨2, ![128, 64]⟩ : Shape).Idx → EReal) (n : Fin 50000) (q : Fin 64) : EReal :=
  ∑ k : Fin 128, x (ix2 n k) * w (ix2 k q)

/-- The product, written out. -/
theorem product_def (x : (⟨2, ![50000, 128]⟩ : Shape).Idx → EReal) (w : (⟨2, ![128, 64]⟩ : Shape).Idx → EReal) (n : Fin 50000) (q : Fin 64) :
    product x w n q = ∑ k : Fin 128, x (ix2 n k) * w (ix2 k q) := rfl

/-! ## The product at one entry of a block -/

/-- The zero offsets of a rank-2 access, as the constant function. -/
theorem zero2 : (![0, 0] : Fin 2 → Nat) = fun _ => 0 := funext fun a => by fin_cases a <;> rfl

/-- The product contracts the left operand's second axis against the right operand's first.  At output entry `j` and
    contraction index `q`, the left operand is read at row `j 0` … -/
theorem lhs_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and column `q`; -/
theorem lhs_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- the right operand at row `q` … -/
theorem rhs_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- … and column `j 1`. -/
theorem rhs_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The kernel's arithmetic at row `p`, channel `q` of a block: from the block `x` of node features and the weight matrix
    `w` it is `Σ_k x[p, k] · w[k, q]` over the 128 input channels — the operands' narrowing is the identity on extended
    reals, and the accumulator is the zero array. -/
theorem payload_entry (x : Vec Ideal S5000x128 .f32) (w : Vec Ideal S128x64 .f32) (p : Fin 5000) (q : Fin 64) :
    k0_pay1 (F := Ideal) x w (ix2 p q) = ∑ k : Fin 128, x (ix2 p k) * w (ix2 k q) := by
  unfold k0_pay1
  exact Cert.PlainProduct.matmul_zero_entry dot_S5000x128_S128x64_S5000x64_1_0_0_1_n_n rfl rfl lhs_row lhs_col rhs_row rhs_col
    (truncf .bf16 x bitsLt_bf16_f32) (truncf .bf16 w bitsLt_bf16_f32) p q

/-! ## The blocks in their arrays -/

-- the buffer contents when the kernel is entered: arbitrary
variable (V : (c : Dev nD) → (b : Ref sig .tc) → Buf (Elt Ideal) ((c : Thread nD τ).loc b))

/-- The whole output as one function of the two operand arrays: entry `(n, q)` is `Σ_k x[n, k] · W[k, q]`. -/
def whole (c : Dev nD) : S50000x64.Idx → EReal := fun i => product (V c main_arg0) (V c main_arg2) (i 0) (i 1)

/-- Which array each of the three windows is a window of, in the kernel's operand order: the node features, the
    weight matrix, and the output. -/
theorem windows_are : Pipeline.arrRef spec0 0 = main_arg0 ∧ Pipeline.arrRef spec0 1 = main_arg2 ∧ Pipeline.arrRef spec0 2 = main_v0 :=
  ⟨rfl, rfl, rfl⟩

/-- Where the blocks sit, decided once over the ten points: at point `t` the node features' block and the output's block
    are both block `(t, 0)` of their arrays, and the weight matrix's block is block `(0, 0)`, the whole matrix. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- There are ten points. -/
theorem point_lt (t : Fin cfg0.N) : t.val < 10 := lt_of_lt_of_eq t.isLt N_0

/-- Row `p`, input channel `k` of the node features' block at point `t` is the array's entry at node `5000·t + p` and
    input channel `k`. -/
theorem x_read (c : Dev nD) (t : Fin cfg0.N) (p : Fin 5000) (k : Fin 128) (n : Fin 50000) (hn : n.val = 5000 * t.val + p.val) :
    (iblk0 V c 0 t : S5000x128.Idx → EReal) (ix2 p k) = (V c main_arg0 : S50000x128.Idx → EReal) (ix2 n k) := by
  obtain ⟨e0, e1, -⟩ := block_index t
  unfold iblk0
  rw [View.read_apply]
  show V c main_arg0 (((cfg0.win 0).blk t).view.emb (ix2 p k)) = V c main_arg0 (ix2 n k)
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * k.val = k.val; omega

/-- The weight matrix's block at any point is the whole matrix: its entry `(k, q)` is the array's entry `(k, q)`. -/
theorem w_read (c : Dev nD) (t : Fin cfg0.N) (k : Fin 128) (q : Fin 64) :
    (iblk0 V c 1 t : S128x64.Idx → EReal) (ix2 k q) = (V c main_arg2 : S128x64.Idx → EReal) (ix2 k q) := by
  obtain ⟨-, -, e0, e1, -⟩ := block_index t
  unfold iblk0
  rw [View.read_apply]
  show V c main_arg2 (((cfg0.win 1).blk t).view.emb (ix2 k q)) = V c main_arg2 (ix2 k q)
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-! ## From the blocks to the array -/

/-- What point `t` writes back is rows `5000·t … 5000·t + 4999` of the whole product: at row `p` and channel `q` of the
    block the sum runs over row `5000·t + p` of the node features and column `q` of the weight matrix, which is the whole
    product at `(5000·t + p, q)` — the entry this row of the block is written to. -/
theorem flushed_eq (c : Dev nD) (t : Fin cfg0.N) :
    (dat0 (F := Ideal) V c).flushed 2 t = ((cfg0.win 2).blk t).view.read (Elt Ideal) (whole V c) := by
  show (cfg0.win 2).cut (grid0.coords t) ((dat0 V c).after 2 t) = _
  rw [after0_2]
  unfold out0_2
  rw [View.canon_unit_zero zero2]
  simp only [View.ld_unit_zero (S := S5000x128) zero2, View.ld_unit_zero (S := S128x64) zero2]
  funext j
  obtain ⟨p, q, rfl⟩ : ∃ (p : Fin 5000) (q : Fin 64), j = ix2 p q := ⟨j 0, j 1, eq_ix2 j⟩
  obtain ⟨-, -, -, -, e0, e1⟩ := block_index t
  have ht := point_lt t
  have hp := p.isLt
  show k0_pay1 (F := Ideal) (iblk0 V c 0 t) (iblk0 V c 1 t) (ix2 p q) = whole V c (((cfg0.win 2).blk t).view.emb (ix2 p q))
  have hemb : ((cfg0.win 2).blk t).view.emb (ix2 p q) = ix2 (⟨5000 * t.val + p.val, by omega⟩ : Fin 50000) q := funext fun a => Fin.ext (by
    match a with
    | ⟨0, _⟩ => show win0_2.index t (0 : Fin 2) * 5000 + 1 * p.val = 5000 * t.val + p.val; omega
    | ⟨1, _⟩ => show win0_2.index t (1 : Fin 2) * 64 + 1 * q.val = q.val; omega)
  rw [hemb]
  refine (payload_entry _ _ p q).trans ?_
  show _ = product (V c main_arg0) (V c main_arg2) ⟨5000 * t.val + p.val, _⟩ q
  unfold product
  refine Finset.sum_congr rfl fun k _ => ?_
  rw [x_read V c t p k ⟨5000 * t.val + p.val, by omega⟩ rfl, w_read]

/-- An entry of the output lies in point `t`'s block exactly when, on each axis, its coordinate lies in the block's
    range: 5000 rows from row `5000 ·` (the block's row index), and all 64 channels. -/
theorem mem_block (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every entry of the output is written back by some point: node `n` lies in the block of point `n / 5000`. -/
theorem covered (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, e0, e1⟩ := block_index t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE OUTPUT ARRAY after the ten points, for any contents `V` at the kernel's entry: entry `(n, q)` is
    `Σ_k x[n, k] · W[k, q]` (`product`) of the two operand arrays as the kernel finds them. -/
theorem product_array (c : Dev nD) :
    (dat0 (F := Ideal) V c).arrAt 2 cfg0.N
      = (fun i : S50000x64.Idx => product (V c main_arg0) (V c main_arg2) (i 0) (i 1)) :=
  (dat0 V c).arrAt_eq_of_cover 2 (whole V c) (fun t _ => flushed_eq V c t) covered

end Cert.KernelIdeal.Project

end
-- ==== Proof.Apply.lean ====
/-
  The last kernel, from its ten blocks to the whole array.

  The third kernel runs over ten grid points.  At point `t` it is handed rows `5000·t … 5000·t + 4999` of the
  aggregated features (a block of 5000 nodes by 64 channels) together with five vectors over the 64 channels, each held
  whole at every point: the bias, the mean, the variance, and the two affine parameters.  From these it computes, for row
  `p` of the block and channel `q`,

      γ[q] · (tanh (A[5000·t + p, q] + b[q]) − μ[q]) · rsqrt (v[q] + ε) + β[q],

  and writes the 5000 by 64 result back as rows `5000·t … 5000·t + 4999` of the output.  An entry of the output therefore
  depends on one entry of the aggregated features — the one at its own node and channel — and on entry `q` of each
  channel vector, and on nothing else: not on the point, and not on the other rows of the block.

  Every node `n` lies in exactly one block, the one at point `n / 5000`, so the ten write-backs fill the output, and
  the output array after the ten points is the one function `GcnNorm.applied` of the six operand arrays, entry by entry.

  The steps: a channel vector laid out as a row and repeated down the block reads its own entry (`chan_row`); the
  kernel's arithmetic at one entry of a block (`payload_entry`); where each window's block sits in its array at a
  point (`block_index`, and the reads `row_read` … `beta_read`); what a point writes back is its block of the whole-array
  function (`flushed_eq`); the blocks cover the array (`covered`); the array (`applied_array`).
-/
import proofs.«116307_j12292196401321_1_alg».proof.Proof.Gen.KernelIdeal.Frame
import proofs.«116307_j12292196401321_1_alg».proof.Proof.Spec
import Idealize.ShloMosaic.Lib.Pipeline.Value
import Idealize.ShloMosaic.Lib.ValueLayout

noncomputable section

namespace Cert.KernelIdeal.Apply

open Cert.KernelIdeal Cert.KernelIdeal.Gen Idealize.ShloMosaic Idealize.ShloMosaic.TcCoe Idealize.SL.Sem
open Idealize.ShloMosaic.ValueIdx
open Idealize.ShloMosaic.Pipeline (Dat)

/-! ## The arithmetic at one entry of a block -/

/-- The zero offsets of a rank-2 access, as the constant function. -/
theorem zero2 : (![0, 0] : Fin 2 → Nat) = fun _ => 0 := funext fun a => by fin_cases a <;> rfl
/-- The zero offset of a rank-1 access, as the constant function. -/
theorem zero1 : (![0] : Fin 1 → Nat) = fun _ => 0 := funext fun a => by fin_cases a <;> rfl

/-- A vector over the 64 channels, laid out as one row of 64 and repeated down the 5000 rows of a block, reads at row
    `p` and channel `q` its own entry `q`, whatever the row. -/
theorem chan_row (v : S64.Idx → EReal) (p : Fin 5000) (q : Fin 64) :
    broadcastTo S5000x64 (shapeCast S1x64 v shapeCasts_S64_S1x64) broadcasts_S1x64_S5000x64 (ix2 p q) = v (ix1 q) :=
  (broadcastTo_1b_ab_apply _ _ p q).trans (shapeCast_a_1a_apply v _ 0 q)

/-- A hyperbolic tangent taken entry by entry, read at an entry. -/
theorem tanh_at {s : Shape} {φ : FTy} (x : FVec Ideal s φ) (i : s.Idx) : tanh x i = Ideal.tanh (x i) := rfl
/-- A reciprocal square root taken entry by entry, read at an entry. -/
theorem rsqrt_at {s : Shape} {φ : FTy} (x : FVec Ideal s φ) (i : s.Idx) : rsqrt x i = Ideal.rsqrt (x i) := rfl

/-- The kernel's arithmetic at row `p`, channel `q` of a block: from the block `a` of aggregated features and the five
    channel vectors — bias `b`, variance `v`, scale `g`, mean `μ`, shift `be`, in the order the body takes them — it is
    `g[q] · (tanh (a[p, q] + b[q]) − μ[q]) · rsqrt (v[q] + ε) + be[q]`.  The body's epsilon is the pattern `GcnNorm.eps`
    names, never evaluated. -/
theorem payload_entry (a : Vec Ideal S5000x64 .f32) (b v g μ be : Vec Ideal S64 .f32) (p : Fin 5000) (q : Fin 64) :
    k2_pay1 (F := Ideal) a b v g μ be (ix2 p q)
      = g (ix1 q) * (Ideal.tanh (a (ix2 p q) + b (ix1 q)) - μ (ix1 q)) * Ideal.rsqrt (v (ix1 q) + GcnNorm.eps) + be (ix1 q) := by
  unfold k2_pay1
  simp only [addf_apply, mulf_apply, subf_apply, tanh_at, rsqrt_at, chan_row, shapeCast_self, broadcast_apply]
  rfl

/-! ## The blocks in their arrays -/

-- the buffer contents when the kernel is entered: arbitrary
variable (V : (c : Dev nD) → (b : Ref sig .tc) → Buf (Elt Ideal) ((c : Thread nD τ).loc b))

/-- The whole output as one function of the six operand arrays: entry `(n, q)` is the normalized, affinely transformed
    activation at node `n` and channel `q`. -/
def whole (c : Dev nD) : S50000x64.Idx → EReal := fun i =>
  GcnNorm.applied (V c main_v43) (V c main_arg3) (V c main_v46) (V c main_v50) (V c main_arg4) (V c main_arg5) (i 0) (i 1)

/-- Which array each of the seven windows is a window of, in the kernel's operand order: the aggregated features, the
    bias, the mean, the variance, the scale, the shift, and the output. -/
theorem windows_are : Pipeline.arrRef spec2 0 = main_v43 ∧ Pipeline.arrRef spec2 1 = main_arg3 ∧ Pipeline.arrRef spec2 2 = main_v46
    ∧ Pipeline.arrRef spec2 3 = main_v50 ∧ Pipeline.arrRef spec2 4 = main_arg4 ∧ Pipeline.arrRef spec2 5 = main_arg5
    ∧ Pipeline.arrRef spec2 6 = main_v51 := ⟨rfl, rfl, rfl, rfl, rfl, rfl, rfl⟩

/-- Where the blocks sit, decided once over the ten points: at point `t` the aggregated features' block and the output's
    block are both block `(t, 0)` of their arrays, and each channel vector's block is block `0`, the whole vector. -/
theorem block_index : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 1) = 0 ∧ win2_2.index t (0 : Fin 1) = 0 ∧ win2_3.index t (0 : Fin 1) = 0
    ∧ win2_4.index t (0 : Fin 1) = 0 ∧ win2_5.index t (0 : Fin 1) = 0 :=
  (by decide +kernel : ∀ t : Fin grid2.N, _)

/-- There are ten points. -/
theorem point_lt (t : Fin cfg2.N) : t.val < 10 := lt_of_lt_of_eq t.isLt N_2

/-- Row `p`, channel `q` of the aggregated features' block at point `t` is the array's entry at node `5000·t + p` and
    channel `q`. -/
theorem row_read (c : Dev nD) (t : Fin cfg2.N) (p : Fin 5000) (q : Fin 64) (n : Fin 50000) (hn : n.val = 5000 * t.val + p.val) :
    (iblk2 V c 0 t : S5000x64.Idx → EReal) (ix2 p q) = (V c main_v43 : S50000x64.Idx → EReal) (ix2 n q) := by
  obtain ⟨e0, e1, -⟩ := block_index t
  unfold iblk2
  rw [View.read_apply]
  show V c main_v43 (((cfg2.win 0).blk t).view.emb (ix2 p q)) = V c main_v43 (ix2 n q)
  refine congrArg _ (funext fun a => Fin.ext ?_)
  match a with
  | ⟨0, _⟩ => show win2_0.index t (0 : Fin 2) * 5000 + 1 * p.val = n.val; omega
  | ⟨1, _⟩ => show win2_0.index t (1 : Fin 2) * 64 + 1 * q.val = q.val; omega

/-- The bias's block at any point is the whole vector: its entry `q` is the array's entry `q`. -/
theorem bias_read (c : Dev nD) (t : Fin cfg2.N) (q : Fin 64) :
    (iblk2 V c 1 t : S64.Idx → EReal) (ix1 q) = (V c main_arg3 : S64.Idx → EReal) (ix1 q) := by
  obtain ⟨-, -, -, -, e1, e2, e3, e4, e5⟩ := block_index t
  unfold iblk2
  rw [View.read_apply]
  show V c main_arg3 (((cfg2.win 1).blk t).view.emb (ix1 q)) = V c main_arg3 (ix1 q)
  refine congrArg _ (funext fun a => Fin.ext ?_)
  match a with
  | ⟨0, _⟩ => show win2_1.index t (0 : Fin 1) * 64 + 1 * q.val = q.val; omega

/-- The mean's block at any point is the whole vector: its entry `q` is the array's entry `q`. -/
theorem mean_read (c : Dev nD) (t : Fin cfg2.N) (q : Fin 64) :
    (iblk2 V c 2 t : S64.Idx → EReal) (ix1 q) = (V c main_v46 : S64.Idx → EReal) (ix1 q) := by
  obtain ⟨-, -, -, -, e1, e2, e3, e4, e5⟩ := block_index t
  unfold iblk2
  rw [View.read_apply]
  show V c main_v46 (((cfg2.win 2).blk t).view.emb (ix1 q)) = V c main_v46 (ix1 q)
  refine congrArg _ (funext fun a => Fin.ext ?_)
  match a with
  | ⟨0, _⟩ => show win2_2.index t (0 : Fin 1) * 64 + 1 * q.val = q.val; omega

/-- The variance's block at any point is the whole vector: its entry `q` is the array's entry `q`. -/
theorem var_read (c : Dev nD) (t : Fin cfg2.N) (q : Fin 64) :
    (iblk2 V c 3 t : S64.Idx → EReal) (ix1 q) = (V c main_v50 : S64.Idx → EReal) (ix1 q) := by
  obtain ⟨-, -, -, -, e1, e2, e3, e4, e5⟩ := block_index t
  unfold iblk2
  rw [View.read_apply]
  show V c main_v50 (((cfg2.win 3).blk t).view.emb (ix1 q)) = V c main_v50 (ix1 q)
  refine congrArg _ (funext fun a => Fin.ext ?_)
  match a with
  | ⟨0, _⟩ => show win2_3.index t (0 : Fin 1) * 64 + 1 * q.val = q.val; omega

/-- The scale's block at any point is the whole vector: its entry `q` is the array's entry `q`. -/
theorem gamma_read (c : Dev nD) (t : Fin cfg2.N) (q : Fin 64) :
    (iblk2 V c 4 t : S64.Idx → EReal) (ix1 q) = (V c main_arg4 : S64.Idx → EReal) (ix1 q) := by
  obtain ⟨-, -, -, -, e1, e2, e3, e4, e5⟩ := block_index t
  unfold iblk2
  rw [View.read_apply]
  show V c main_arg4 (((cfg2.win 4).blk t).view.emb (ix1 q)) = V c main_arg4 (ix1 q)
  refine congrArg _ (funext fun a => Fin.ext ?_)
  match a with
  | ⟨0, _⟩ => show win2_4.index t (0 : Fin 1) * 64 + 1 * q.val = q.val; omega

/-- The shift's block at any point is the whole vector: its entry `q` is the array's entry `q`. -/
theorem beta_read (c : Dev nD) (t : Fin cfg2.N) (q : Fin 64) :
    (iblk2 V c 5 t : S64.Idx → EReal) (ix1 q) = (V c main_arg5 : S64.Idx → EReal) (ix1 q) := by
  obtain ⟨-, -, -, -, e1, e2, e3, e4, e5⟩ := block_index t
  unfold iblk2
  rw [View.read_apply]
  show V c main_arg5 (((cfg2.win 5).blk t).view.emb (ix1 q)) = V c main_arg5 (ix1 q)
  refine congrArg _ (funext fun a => Fin.ext ?_)
  match a with
  | ⟨0, _⟩ => show win2_5.index t (0 : Fin 1) * 64 + 1 * q.val = q.val; omega

/-! ## From the blocks to the array -/

/-- What point `t` writes back is rows `5000·t … 5000·t + 4999` of the whole-array function: at row `p` and channel `q`
    of the block the body's arithmetic reads the aggregated features at node `5000·t + p` and each channel vector at
    `q`, which is the whole-array function at `(5000·t + p, q)` — the entry this row of the block is written to. -/
theorem flushed_eq (c : Dev nD) (t : Fin cfg2.N) :
    (dat2 (F := Ideal) V c).flushed 6 t = ((cfg2.win 6).blk t).view.read (Elt Ideal) (whole V c) := by
  show (cfg2.win 6).cut (grid2.coords t) ((dat2 V c).after 6 t) = _
  rw [after2_6]
  unfold out2_6
  rw [View.canon_unit_zero zero2]
  simp only [View.ld_unit_zero (S := S5000x64) zero2, View.ld_unit_zero (S := S64) zero1]
  funext j
  obtain ⟨p, q, rfl⟩ : ∃ (p : Fin 5000) (q : Fin 64), j = ix2 p q := ⟨j 0, j 1, eq_ix2 j⟩
  obtain ⟨-, -, e0, e1, -⟩ := block_index t
  have ht := point_lt t
  have hp := p.isLt
  show k2_pay1 (F := Ideal) (iblk2 V c 0 t) (iblk2 V c 1 t) (iblk2 V c 3 t) (iblk2 V c 4 t) (iblk2 V c 2 t) (iblk2 V c 5 t) (ix2 p q)
      = whole V c (((cfg2.win 6).blk t).view.emb (ix2 p q))
  have hemb : ((cfg2.win 6).blk t).view.emb (ix2 p q) = ix2 (⟨5000 * t.val + p.val, by omega⟩ : Fin 50000) q := funext fun a => Fin.ext (by
    match a with
    | ⟨0, _⟩ => show win2_6.index t (0 : Fin 2) * 5000 + 1 * p.val = 5000 * t.val + p.val; omega
    | ⟨1, _⟩ => show win2_6.index t (1 : Fin 2) * 64 + 1 * q.val = q.val; omega)
  rw [hemb]
  refine (payload_entry _ _ _ _ _ _ p q).trans ?_
  rw [row_read V c t p q ⟨5000 * t.val + p.val, by omega⟩ rfl, bias_read, mean_read, var_read, gamma_read, beta_read]
  rfl

/-- An entry of the output lies in point `t`'s block exactly when, on each axis, its coordinate lies in the block's
    range: 5000 rows from row `5000 ·` (the block's row index), and all 64 channels. -/
theorem mem_block (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v51).slice (win2_6.rect t)).set ↔ _
  rw [View.set_slice_whole, Rect.mem_set_unit]
  exact Iff.rfl

/-- Every entry of the output is written back by some point: node `n` lies in the block of point `n / 5000`. -/
theorem covered (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  obtain ⟨t, ht⟩ : ∃ t : Fin cfg2.N, t.val = (i 0).val / 5000 := ⟨⟨(i 0).val / 5000, by rw [show cfg2.N = 10 from N_2]; omega⟩, rfl⟩
  obtain ⟨-, -, e0, e1, -⟩ := block_index t
  refine ⟨t, flush2_6 t, ?_⟩
  rw [mem_block]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- THE OUTPUT ARRAY after the ten points, for any contents `V` at the kernel's entry: entry `(n, q)` is
    `γ[q] · (tanh (A[n, q] + b[q]) − μ[q]) · rsqrt (v[q] + ε) + β[q]` of the six operand arrays as the kernel finds them. -/
theorem applied_array (c : Dev nD) :
    (dat2 (F := Ideal) V c).arrAt 6 cfg2.N
      = (fun i : S50000x64.Idx => GcnNorm.applied (V c main_v43) (V c main_arg3) (V c main_v46) (V c main_v50) (V c main_arg4) (V c main_arg5) (i 0) (i 1)) :=
  (dat2 V c).arrAt_eq_of_cover 6 (whole V c) (fun t _ => flushed_eq V c t) covered

end Cert.KernelIdeal.Apply

end
-- ==== Proof.ReducePoint.lean ====
/-
  One grid point of the column-sum kernel, read as mathematics.

  The second kernel walks over the 50000 nodes in 10 consecutive blocks of 5000 rows.  At each block it forms the
  activation a[n, c] = tanh (A[n, c] + b[c]) of the block's rows and adds, channel by channel, the block's column sum
  of a to one running array of 64 entries and the block's column sum of a² to another.  At the first block it first
  sets both running arrays to zero.

  This module reads what ONE such step leaves in the two running arrays, at a channel q, for arbitrary contents of
  the block (x0 : 5000 rows by 64 channels), the bias (x1 : 64 channels) and the running arrays before the step:

      first block :  Σ_p tanh (x0[p, q] + x1[q])             and   Σ_p tanh (x0[p, q] + x1[q])²
      later block :  old[q] + Σ_p tanh (x0[p, q] + x1[q])    and   old'[q] + Σ_p tanh (x0[p, q] + x1[q])²

  and says which rows of the node array block t is: row p of block t is node 5000·t + p, all 64 channels; the bias is
  read whole at every block.
-/
import proofs.«116307_j12292196401321_1_alg».proof.Proof.Gen.KernelIdeal.Frame
import proofs.«116307_j12292196401321_1_alg».proof.Proof.Spec
import Idealize.ShloMosaic.Lib.Pipeline.Value
import Idealize.ShloMosaic.Lib.ValueLayout
import Idealize.ShloMosaic.Lib.Tactic
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Reduce

open Cert.KernelIdeal Cert.KernelIdeal.Gen

variable {F : FTy → Type} [FloatOps F]

/-- The zero offsets of a whole-array access, rank 1 and rank 2. -/
theorem hz : (![0] : Fin 1 → Nat) = fun _ => 0 := funext fun a => by fin_cases a <;> rfl
theorem hz2 : (![0, 0] : Fin 2 → Nat) = fun _ => 0 := funext fun a => by fin_cases a <;> rfl

/-! ## What a step stores, for any float values

Each running array is written by whole-array stores only, so what a step leaves in it is the value of its LAST
store.  At a later block that value is computed from the block, the bias and the running array as the step found it;
at the first block the running array it is computed from is the zero array the step has just stored. -/

/-- A later block leaves, in the array of sums, the sum step applied to what was there. -/
theorem piece_B_2 (c : Dev nD) (i : grid1.Coords) (a1 : Memref sig .tc .vmem S5000x64 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (hc : ¬cond1_0 i)
    (x0 : Vec F S5000x64 .f32) (x1 : Vec F S64 .f32) (xo2 xo3 : Vec F S64 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero (S := S64) hz]
  simp only [View.readAt_eq_ld, h1.read_unread, h2.read_unread, h3.read_unread,
    View.ld_unit_zero (S := S5000x64) hz2, View.ld_unit_zero (S := S64) hz]

/-- A later block leaves, in the array of sums of squares, the square-sum step applied to what was there. -/
theorem piece_B_3 (c : Dev nD) (i : grid1.Coords) (a1 : Memref sig .tc .vmem S5000x64 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (hc : ¬cond1_0 i)
    (x0 : Vec F S5000x64 .f32) (x1 : Vec F S64 .f32) (xo2 xo3 : Vec F S64 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero (S := S64) hz]
  simp only [View.readAt_eq_ld, h1.read_unread, h2.read_unread, h4.read_unread,
    View.ld_unit_zero (S := S5000x64) hz2, View.ld_unit_zero (S := S64) hz]

/-- The first block leaves, in the array of sums, the sum step applied to the zero array it stored first. -/
theorem piece_A_2 (c : Dev nD) (i : grid1.Coords) (a1 : Memref sig .tc .vmem S5000x64 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (hc : cond1_0 i)
    (x0 : Vec F S5000x64 .f32) (x1 : Vec F S64 .f32) :
    out1_A_2 c i a1 h1 a2 h2 a3 h3 a4 h4 hc x0 x1 = k1_pay4 x0 x1 (k1_pay1 (F := F)) := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S64) hz, View.readCov_unit_zero (S := S64) _ hz]
  simp only [View.readAt_eq_ld, h1.read_unread, h2.read_unread,
    View.ld_unit_zero (S := S5000x64) hz2, View.ld_unit_zero (S := S64) hz]

/-- The first block leaves, in the array of sums of squares, the square-sum step applied to the zero array it
    stored first. -/
theorem piece_A_3 (c : Dev nD) (i : grid1.Coords) (a1 : Memref sig .tc .vmem S5000x64 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (hc : cond1_0 i)
    (x0 : Vec F S5000x64 .f32) (x1 : Vec F S64 .f32) :
    out1_A_3 c i a1 h1 a2 h2 a3 h3 a4 h4 hc x0 x1 = k1_pay5 x0 x1 (k1_pay2 (F := F)) := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S64) hz, View.readCov_unit_zero (S := S64) _ hz]
  simp only [View.readAt_eq_ld, h1.read_unread, h2.read_unread,
    View.ld_unit_zero (S := S5000x64) hz2, View.ld_unit_zero (S := S64) hz]

/-! ## The step's arithmetic at a channel, over the extended reals -/

/-- The activation of the block at row `p`, channel `q`: the bias, viewed as one row and repeated down the 5000
    rows, contributes its entry `q`. -/
theorem pay3_apply (x0 : Vec Ideal S5000x64 .f32) (x1 : Vec Ideal S64 .f32) (p : Fin 5000) (q : Fin 64) :
    k1_pay3 (F := Ideal) x0 x1 (ix2 p q) = Ideal.tanh (x0 (ix2 p q) + x1 (ix1 q)) := by
  unfold k1_pay3
  show Ideal.tanh (shapeCast S5000x64 x0 shapeCasts_S5000x64_S5000x64 (ix2 p q)
      + broadcastTo S5000x64 (shapeCast S1x64 x1 shapeCasts_S64_S1x64) broadcasts_S1x64_S5000x64 (ix2 p q)) = _
  rw [shapeCast_self]
  refine congrArg (fun z => Ideal.tanh (x0 (ix2 p q) + z)) ?_
  refine (broadcastTo_apply _ _ (ix2 p q) (ix2 (0 : Fin 1) q) ?_).trans ?_
  · intro a
    match a with
    | ⟨0, _⟩ => rfl
    | ⟨1, _⟩ => rfl
  · refine shapeCast_apply x1 _ (ix2 (0 : Fin 1) q) (ix1 q) ?_
    rw [Shape.rowMajor_val_one, Shape.rowMajor_val_two]
    show q.val = 0 * 64 + q.val
    omega

/-- Putting row `p` back in front of channel `q` gives the entry (p, q). -/
theorem lift_eq (p : Fin 5000) (q : Fin 64) : reduces_S5000x64_S64.lift (ix1 q) p = ix2 p q := by
  funext a
  match a with
  | ⟨0, _⟩ => exact Fin.ext rfl
  | ⟨1, _⟩ => exact Fin.ext rfl

/-- The sum step at channel `q`: the old entry plus the block's column sum of the activation. -/
theorem pay4_apply (x0 : Vec Ideal S5000x64 .f32) (x1 y : Vec Ideal S64 .f32) (q : Fin 64) :
    k1_pay4 (F := Ideal) x0 x1 y (ix1 q) = y (ix1 q) + ∑ p : Fin 5000, k1_pay3 (F := Ideal) x0 x1 (ix2 p q) := by
  unfold k1_pay4
  show shapeCast S64 y shapeCasts_S64_S64 (ix1 q)
      + multiReduction (F := Ideal) .add [0] S64 (k1_pay3 (F := Ideal) x0 x1) 0x00000000#32 reduces_S5000x64_S64 (.inl rfl) rfl (ix1 q) = _
  rw [shapeCast_self]
  refine congrArg (fun z => y (ix1 q) + z) ?_
  refine (Ideal.multiReduction_add_single (k1_pay3 (F := Ideal) x0 x1) _ reduces_S5000x64_S64 (.inl rfl) rfl (ix1 q)).trans ?_
  exact Finset.sum_congr rfl fun p _ => congrArg (k1_pay3 (F := Ideal) x0 x1) (lift_eq p q)

/-- The square-sum step at channel `q`: the old entry plus the block's column sum of the squared activation. -/
theorem pay5_apply (x0 : Vec Ideal S5000x64 .f32) (x1 y : Vec Ideal S64 .f32) (q : Fin 64) :
    k1_pay5 (F := Ideal) x0 x1 y (ix1 q)
      = y (ix1 q) + ∑ p : Fin 5000, k1_pay3 (F := Ideal) x0 x1 (ix2 p q) * k1_pay3 (F := Ideal) x0 x1 (ix2 p q) := by
  unfold k1_pay5
  show shapeCast S64 y shapeCasts_S64_S64 (ix1 q)
      + multiReduction (F := Ideal) .add [0] S64 (mulf (k1_pay3 (F := Ideal) x0 x1) (k1_pay3 (F := Ideal) x0 x1)) 0x00000000#32 reduces_S5000x64_S64 (.inl rfl) rfl (ix1 q) = _
  rw [shapeCast_self]
  refine congrArg (fun z => y (ix1 q) + z) ?_
  refine (Ideal.multiReduction_add_single (mulf (k1_pay3 (F := Ideal) x0 x1) (k1_pay3 (F := Ideal) x0 x1)) _ reduces_S5000x64_S64 (.inl rfl) rfl (ix1 q)).trans ?_
  refine Finset.sum_congr rfl fun p _ => ?_
  rw [lift_eq p q]
  rfl

/-- The zero array the first block stores is zero at every channel (both running arrays). -/
theorem pay1_apply (q : Fin 64) : k1_pay1 (F := Ideal) (ix1 q) = 0 := by
  unfold k1_pay1
  show Ideal.ofBits .f32 0x00000000#32 = 0
  exact Ideal.ofBits_zero_f32

theorem pay2_apply (q : Fin 64) : k1_pay2 (F := Ideal) (ix1 q) = 0 := by
  unfold k1_pay2
  show Ideal.ofBits .f32 0x00000000#32 = 0
  exact Ideal.ofBits_zero_f32

/-! ## One step, read at a channel -/

/-- A later block adds its column sum of the activation to the running sum. -/
theorem point_B_2 (c : Dev nD) (i : grid1.Coords) (a1 : Memref sig .tc .vmem S5000x64 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (hc : ¬cond1_0 i)
    (x0 : Vec Ideal S5000x64 .f32) (x1 xo2 xo3 : Vec Ideal S64 .f32) (q : Fin 64) :
    out1_B_2 (F := Ideal) c i a1 h1 a2 h2 a3 h3 a4 h4 hc x0 x1 xo2 xo3 (ix1 q)
      = xo2 (ix1 q) + ∑ p : Fin 5000, Ideal.tanh (x0 (ix2 p q) + x1 (ix1 q)) := by
  rw [piece_B_2, pay4_apply]
  exact congrArg (fun z => xo2 (ix1 q) + z) (Finset.sum_congr rfl fun p _ => pay3_apply x0 x1 p q)

/-- The first block leaves its own column sum of the activation. -/
theorem point_A_2 (c : Dev nD) (i : grid1.Coords) (a1 : Memref sig .tc .vmem S5000x64 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (hc : cond1_0 i)
    (x0 : Vec Ideal S5000x64 .f32) (x1 : Vec Ideal S64 .f32) (q : Fin 64) :
    out1_A_2 (F := Ideal) c i a1 h1 a2 h2 a3 h3 a4 h4 hc x0 x1 (ix1 q)
      = ∑ p : Fin 5000, Ideal.tanh (x0 (ix2 p q) + x1 (ix1 q)) := by
  rw [piece_A_2, pay4_apply, pay1_apply, zero_add]
  exact Finset.sum_congr rfl fun p _ => pay3_apply x0 x1 p q

/-- A later block adds its column sum of the squared activation to the running sum of squares. -/
theorem point_B_3 (c : Dev nD) (i : grid1.Coords) (a1 : Memref sig .tc .vmem S5000x64 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (hc : ¬cond1_0 i)
    (x0 : Vec Ideal S5000x64 .f32) (x1 xo2 xo3 : Vec Ideal S64 .f32) (q : Fin 64) :
    out1_B_3 (F := Ideal) c i a1 h1 a2 h2 a3 h3 a4 h4 hc x0 x1 xo2 xo3 (ix1 q)
      = xo3 (ix1 q) + ∑ p : Fin 5000, Ideal.tanh (x0 (ix2 p q) + x1 (ix1 q)) * Ideal.tanh (x0 (ix2 p q) + x1 (ix1 q)) := by
  rw [piece_B_3, pay5_apply]
  exact congrArg (fun z => xo3 (ix1 q) + z) (Finset.sum_congr rfl fun p _ => by rw [pay3_apply x0 x1 p q])

/-- The first block leaves its own column sum of the squared activation. -/
theorem point_A_3 (c : Dev nD) (i : grid1.Coords) (a1 : Memref sig .tc .vmem S5000x64 .f32) (h1 : a1.IsWhole)
    (a2 : Memref sig .tc .vmem S64 .f32) (h2 : a2.IsWhole) (a3 : Memref sig .tc .vmem S64 .f32) (h3 : a3.IsWhole)
    (a4 : Memref sig .tc .vmem S64 .f32) (h4 : a4.IsWhole) (hc : cond1_0 i)
    (x0 : Vec Ideal S5000x64 .f32) (x1 : Vec Ideal S64 .f32) (q : Fin 64) :
    out1_A_3 (F := Ideal) c i a1 h1 a2 h2 a3 h3 a4 h4 hc x0 x1 (ix1 q)
      = ∑ p : Fin 5000, Ideal.tanh (x0 (ix2 p q) + x1 (ix1 q)) * Ideal.tanh (x0 (ix2 p q) + x1 (ix1 q)) := by
  rw [piece_A_3, pay5_apply, pay2_apply, zero_add]
  exact Finset.sum_congr rfl fun p _ => by rw [pay3_apply x0 x1 p q]

/-! ## The blocks of the two inputs -/

/-- Row `p` of block `t`, as a node: node 5000·t + p. -/
def node (t : Fin 10) (p : Fin 5000) : Fin 50000 :=
  ⟨5000 * t.val + p.val, by have := t.isLt; have := p.isLt; omega⟩

/-- Block `t` of the node array is block-row `t`, block-column 0 (5000 rows by all 64 channels); decided over the
    ten blocks. -/
theorem idx_facts0 : ∀ t : Fin cfg1.N, win1_0.index t 0 = t.val ∧ win1_0.index t 1 = 0 :=
  (by decide +kernel : ∀ t : Fin grid1.N, win1_0.index t 0 = t.val ∧ win1_0.index t 1 = 0)

/-- The bias is one block, the same at every step. -/
theorem idx_facts1 : ∀ t : Fin cfg1.N, win1_1.index t 0 = 0 :=
  (by decide +kernel : ∀ t : Fin grid1.N, win1_1.index t 0 = 0)

section AtEntry
variable (V : (c : Dev nD) → (b : Ref sig .tc) → Buf (Elt Ideal) ((c : Thread nD τ).loc b))

/-- Entry (p, q) of block `t` of the node array, as the kernel finds it, is the array's entry at node 5000·t + p,
    channel q. -/
theorem blk0_apply (c : Dev nD) (t : Fin cfg1.N) (ht : t.val < 10) (p : Fin 5000) (q : Fin 64) :
    (iblk1 V c 0 t : Vec Ideal S5000x64 .f32) (ix2 p q)
      = (V c main_v43 : GcnNorm.Nodes.Idx → EReal) (ix2 (node ⟨t.val, ht⟩ p) q) := by
  unfold iblk1
  rw [View.read_apply]
  show V c main_v43 _ = V c main_v43 _
  congr 1
  funext a
  apply Fin.ext
  match a with
  | ⟨0, _⟩ => show win1_0.index t 0 * 5000 + 1 * p.val = 5000 * t.val + p.val; rw [(idx_facts0 t).1]; omega
  | ⟨1, _⟩ => show win1_0.index t 1 * 64 + 1 * q.val = q.val; rw [(idx_facts0 t).2]; omega

/-- The bias block at any step is the bias array. -/
theorem blk1_apply (c : Dev nD) (t : Fin cfg1.N) (q : Fin 64) :
    (iblk1 V c 1 t : Vec Ideal S64 .f32) (ix1 q) = (V c main_arg3 : GcnNorm.Chan.Idx → EReal) (ix1 q) := by
  unfold iblk1
  rw [View.read_apply]
  show V c main_arg3 _ = V c main_arg3 _
  congr 1
  funext a
  apply Fin.ext
  match a with
  | ⟨0, _⟩ => show win1_1.index t 0 * 64 + 1 * q.val = q.val; rw [idx_facts1 t]; omega

end AtEntry

end Cert.KernelIdeal.Reduce

end
-- ==== Proof.Reduce.lean ====
/-
  The column sums the second kernel leaves.

  The kernel visits the 50000 nodes in 10 consecutive blocks of 5000 rows and keeps two running arrays of 64 entries:
  after block n the first holds, at channel q, the sum over the rows of blocks 0, 1, …, n of the activation
  a[node, q] = tanh (A[node, q] + b[q]), and the second the same sum of a[node, q]².  This is an induction on n: the
  first block leaves its own column sums, and each later block adds its column sums to what the block before left.
  Neither array is written back to memory before the last block; there each is written back whole.  So after the
  kernel the two result arrays hold, at channel q, the sums over ALL 50000 nodes — ten blocks of 5000 consecutive
  nodes are all the nodes, each once — of a[·, q] and of a[·, q]².
-/
import proofs.«116307_j12292196401321_1_alg».proof.Proof.ReducePoint

noncomputable section

open Idealize.ShloMosaic Idealize.ShloMosaic.TcCoe Idealize.SL.Sem
open Idealize.ShloMosaic.Pipeline (Dat)
open Idealize.ShloMosaic.ValueIdx

namespace Cert.KernelIdeal.Reduce

open Cert.KernelIdeal Cert.KernelIdeal.Gen

/-! ## One block's column sums -/

/-- The sum of the activation over the 5000 rows of block `t`, at channel `q` (zero past the tenth block). -/
def blockSum (A : GcnNorm.Nodes.Idx → EReal) (b : GcnNorm.Chan.Idx → EReal) (q : Fin 64) (t : ℕ) : EReal :=
  if h : t < 10 then ∑ p : Fin 5000, GcnNorm.act A b (node ⟨t, h⟩ p) q else 0

/-- The sum of the squared activation over the 5000 rows of block `t`, at channel `q` (zero past the tenth block). -/
def blockSumSq (A : GcnNorm.Nodes.Idx → EReal) (b : GcnNorm.Chan.Idx → EReal) (q : Fin 64) (t : ℕ) : EReal :=
  if h : t < 10 then ∑ p : Fin 5000, GcnNorm.act A b (node ⟨t, h⟩ p) q * GcnNorm.act A b (node ⟨t, h⟩ p) q else 0

/-- The ten blocks' sums add up to the sum over all nodes. -/
theorem blockSum_total (A : GcnNorm.Nodes.Idx → EReal) (b : GcnNorm.Chan.Idx → EReal) (q : Fin 64) :
    ∑ t ∈ Finset.range 10, blockSum A b q t = GcnNorm.colSum A b q := by
  unfold GcnNorm.colSum
  rw [GcnNorm.sum_blocks (fun n => GcnNorm.act A b n q), ← Fin.sum_univ_eq_sum_range (blockSum A b q) 10]
  refine Finset.sum_congr rfl fun t _ => ?_
  unfold blockSum
  rw [dif_pos t.isLt]
  rfl

/-- Likewise for the squares. -/
theorem blockSumSq_total (A : GcnNorm.Nodes.Idx → EReal) (b : GcnNorm.Chan.Idx → EReal) (q : Fin 64) :
    ∑ t ∈ Finset.range 10, blockSumSq A b q t = GcnNorm.colSumSq A b q := by
  unfold GcnNorm.colSumSq
  rw [GcnNorm.sum_blocks (fun n => GcnNorm.act A b n q * GcnNorm.act A b n q),
    ← Fin.sum_univ_eq_sum_range (blockSumSq A b q) 10]
  refine Finset.sum_congr rfl fun t _ => ?_
  unfold blockSumSq
  rw [dif_pos t.isLt]
  rfl

section AtEntry
variable (V : (c : Dev nD) → (b : Ref sig .tc) → Buf (Elt Ideal) ((c : Thread nD τ).loc b))

/-- The column sum a step computes from block `t` (`x0`) and the bias block (`x1`) is block `t`'s sum over the node
    array. -/
theorem step_sum (c : Dev nD) (t : Fin cfg1.N) (q : Fin 64) (x0 : Vec Ideal S5000x64 .f32) (x1 : Vec Ideal S64 .f32)
    (e0 : x0 = iblk1 V c 0 t) (e1 : x1 = iblk1 V c 1 t) :
    ∑ p : Fin 5000, Ideal.tanh (x0 (ix2 p q) + x1 (ix1 q)) = blockSum (V c main_v43) (V c main_arg3) q t.val := by
  have ht : t.val < 10 := lt_of_lt_of_eq t.isLt N_1
  unfold blockSum
  rw [dif_pos ht]
  refine Finset.sum_congr rfl fun p _ => ?_
  unfold GcnNorm.act
  have a0 : x0 (ix2 p q) = (V c main_v43 : GcnNorm.Nodes.Idx → EReal) (ix2 (node ⟨t.val, ht⟩ p) q) := by
    rw [e0]; exact blk0_apply V c t ht p q
  have a1 : x1 (ix1 q) = (V c main_arg3 : GcnNorm.Chan.Idx → EReal) (ix1 q) := by
    rw [e1]; exact blk1_apply V c t q
  rw [a0, a1]

/-- Likewise for the squares. -/
theorem step_sumSq (c : Dev nD) (t : Fin cfg1.N) (q : Fin 64) (x0 : Vec Ideal S5000x64 .f32) (x1 : Vec Ideal S64 .f32)
    (e0 : x0 = iblk1 V c 0 t) (e1 : x1 = iblk1 V c 1 t) :
    ∑ p : Fin 5000, Ideal.tanh (x0 (ix2 p q) + x1 (ix1 q)) * Ideal.tanh (x0 (ix2 p q) + x1 (ix1 q))
      = blockSumSq (V c main_v43) (V c main_arg3) q t.val := by
  have ht : t.val < 10 := lt_of_lt_of_eq t.isLt N_1
  unfold blockSumSq
  rw [dif_pos ht]
  refine Finset.sum_congr rfl fun p _ => ?_
  unfold GcnNorm.act
  have a0 : x0 (ix2 p q) = (V c main_v43 : GcnNorm.Nodes.Idx → EReal) (ix2 (node ⟨t.val, ht⟩ p) q) := by
    rw [e0]; exact blk0_apply V c t ht p q
  have a1 : x1 (ix1 q) = (V c main_arg3 : GcnNorm.Chan.Idx → EReal) (ix1 q) := by
    rw [e1]; exact blk1_apply V c t q
  rw [a0, a1]

/-! ## The running arrays after block `n` -/

/-- After block `n` the first running array holds, at channel `q`, the sums of blocks 0 … n. -/
theorem sums_at (c : Dev nD) (q : Fin 64) : ∀ (n : ℕ) (h : n < cfg1.N),
    (outsAt1 (F := Ideal) V c n h).1 (ix1 q) = ∑ t ∈ Finset.range (n + 1), blockSum (V c main_v43) (V c main_arg3) q t
  | 0, h => by
    refine (congrArg (fun z : Vec Ideal S64 .f32 × Vec Ideal S64 .f32 => z.1 (ix1 q)) (outsAt1_A V c ⟨0, h⟩ rfl)).trans ?_
    refine (point_A_2 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr rfl) (iblk1 V c 0 ⟨0, h⟩) (iblk1 V c 1 ⟨0, h⟩) q).trans ?_
    rw [Finset.sum_range_one]
    exact step_sum V c ⟨0, h⟩ q (iblk1 V c 0 ⟨0, h⟩) (iblk1 V c 1 ⟨0, h⟩) rfl rfl
  | n + 1, h => by
    have hN : cfg1.N = 10 := N_1
    have hB : ¬(⟨n + 1, h⟩ : Fin cfg1.N).val % 10 = 0 := by dsimp only; omega
    refine (congrArg (fun z : Vec Ideal S64 .f32 × Vec Ideal S64 .f32 => z.1 (ix1 q)) (outsAt1_B V c ⟨n + 1, h⟩ hB)).trans ?_
    refine (point_B_2 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => hB ((hcond1_0 ⟨n + 1, h⟩).mp hh)) (iblk1 V c 0 ⟨n + 1, h⟩) (iblk1 V c 1 ⟨n + 1, h⟩)
      (outsAt1 V c n (Nat.lt_of_succ_lt h)).1 (outsAt1 V c n (Nat.lt_of_succ_lt h)).2 q).trans ?_
    rw [Finset.sum_range_succ _ (n + 1)]
    exact congrArg₂ (fun u v : EReal => u + v) (sums_at c q n (Nat.lt_of_succ_lt h)) (step_sum V c ⟨n + 1, h⟩ q (iblk1 V c 0 ⟨n + 1, h⟩) (iblk1 V c 1 ⟨n + 1, h⟩) rfl rfl)

/-- After block `n` the second running array holds, at channel `q`, the sums of squares of blocks 0 … n. -/
theorem sumSqs_at (c : Dev nD) (q : Fin 64) : ∀ (n : ℕ) (h : n < cfg1.N),
    (outsAt1 (F := Ideal) V c n h).2 (ix1 q) = ∑ t ∈ Finset.range (n + 1), blockSumSq (V c main_v43) (V c main_arg3) q t
  | 0, h => by
    refine (congrArg (fun z : Vec Ideal S64 .f32 × Vec Ideal S64 .f32 => z.2 (ix1 q)) (outsAt1_A V c ⟨0, h⟩ rfl)).trans ?_
    refine (point_A_3 c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) ((hcond1_0 ⟨0, h⟩).mpr rfl) (iblk1 V c 0 ⟨0, h⟩) (iblk1 V c 1 ⟨0, h⟩) q).trans ?_
    rw [Finset.sum_range_one]
    exact step_sumSq V c ⟨0, h⟩ q (iblk1 V c 0 ⟨0, h⟩) (iblk1 V c 1 ⟨0, h⟩) rfl rfl
  | n + 1, h => by
    have hN : cfg1.N = 10 := N_1
    have hB : ¬(⟨n + 1, h⟩ : Fin cfg1.N).val % 10 = 0 := by dsimp only; omega
    refine (congrArg (fun z : Vec Ideal S64 .f32 × Vec Ideal S64 .f32 => z.2 (ix1 q)) (outsAt1_B V c ⟨n + 1, h⟩ hB)).trans ?_
    refine (point_B_3 c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (fun hh => hB ((hcond1_0 ⟨n + 1, h⟩).mp hh)) (iblk1 V c 0 ⟨n + 1, h⟩) (iblk1 V c 1 ⟨n + 1, h⟩)
      (outsAt1 V c n (Nat.lt_of_succ_lt h)).1 (outsAt1 V c n (Nat.lt_of_succ_lt h)).2 q).trans ?_
    rw [Finset.sum_range_succ _ (n + 1)]
    exact congrArg₂ (fun u v : EReal => u + v) (sumSqs_at c q n (Nat.lt_of_succ_lt h)) (step_sumSq V c ⟨n + 1, h⟩ q (iblk1 V c 0 ⟨n + 1, h⟩) (iblk1 V c 1 ⟨n + 1, h⟩) rfl rfl)

end AtEntry

/-! ## The result arrays after the kernel

Only the last block writes the running arrays back, and the block it writes is the whole array of 64 entries; so each
result array ends holding its running array after the tenth block. -/

section Final
variable (V : (c : Dev nD) → (b : Ref sig .tc) → Buf (Elt Ideal) ((c : Thread nD τ).loc b))

/-- The column sums of the activation over all nodes, as contents of the first result array. -/
abbrev totals (c : Dev nD) : Buf (Elt Ideal) ((c : Thread nD τ).loc main_v44_0) :=
  fun j : S64.Idx => GcnNorm.colSum (V c main_v43) (V c main_arg3) (j 0)

/-- The column sums of the squared activation over all nodes, as contents of the second result array. -/
abbrev totalSqs (c : Dev nD) : Buf (Elt Ideal) ((c : Thread nD τ).loc main_v44_1) :=
  fun j : S64.Idx => GcnNorm.colSumSq (V c main_v43) (V c main_arg3) (j 0)

/-- After the tenth block the first running array is the array of all-node sums. -/
theorem last_sums (c : Dev nD) : (outsAt1 (F := Ideal) V c t1_9.val t1_9.isLt).1 = totals V c := by
  funext j
  obtain ⟨q, rfl⟩ : ∃ q : Fin 64, j = ix1 q := ⟨j 0, eq_ix1 j⟩
  exact (sums_at V c q 9 t1_9.isLt).trans (blockSum_total (V c main_v43) (V c main_arg3) q)

/-- After the tenth block the second running array is the array of all-node sums of squares. -/
theorem last_sumSqs (c : Dev nD) : (outsAt1 (F := Ideal) V c t1_9.val t1_9.isLt).2 = totalSqs V c := by
  funext j
  obtain ⟨q, rfl⟩ : ∃ q : Fin 64, j = ix1 q := ⟨j 0, eq_ix1 j⟩
  exact (sumSqs_at V c q 9 t1_9.isLt).trans (blockSumSq_total (V c main_v43) (V c main_arg3) q)

/-- The one write-back of the first result array, at the last block, writes the all-node sums: its block is the whole
    array. -/
theorem flushed_2 (c : Dev nD) (t : Fin cfg1.N) (hf : (cfg1.win 2).flush t = true) :
    (dat1 V c).flushed 2 t = ((cfg1.win 2).blk t).view.read (Elt Ideal) (totals V c) := by
  have hN : cfg1.N = 10 := N_1
  have h9 : t.val = 9 := by have := (flush1_2 t).mp hf; have := t.isLt; omega
  obtain rfl : t = t1_9 := Fin.ext h9
  show (cfg1.win 2).cut (grid1.coords t1_9) ((dat1 V c).after 2 t1_9) = _
  rw [after1_2, last_sums]
  have hz' : (fun a => win1_2.index t1_9 a * main_v44_0.ty.shape.size a) = fun _ => 0 := funext fun a => by fin_cases a <;> decide
  exact (Memref.read_access_unit_zero (Elt Ideal) main_v44_0 hz' (fun a => by rw [congrFun hz' a]; simp) (totals V c)).symm

/-- Likewise the second result array. -/
theorem flushed_3 (c : Dev nD) (t : Fin cfg1.N) (hf : (cfg1.win 3).flush t = true) :
    (dat1 V c).flushed 3 t = ((cfg1.win 3).blk t).view.read (Elt Ideal) (totalSqs V c) := by
  have hN : cfg1.N = 10 := N_1
  have h9 : t.val = 9 := by have := (flush1_3 t).mp hf; have := t.isLt; omega
  obtain rfl : t = t1_9 := Fin.ext h9
  show (cfg1.win 3).cut (grid1.coords t1_9) ((dat1 V c).after 3 t1_9) = _
  rw [after1_3, last_sumSqs]
  have hz' : (fun a => win1_3.index t1_9 a * main_v44_1.ty.shape.size a) = fun _ => 0 := funext fun a => by fin_cases a <;> decide
  exact (Memref.read_access_unit_zero (Elt Ideal) main_v44_1 hz' (fun a => by rw [congrFun hz' a]; simp) (totalSqs V c)).symm

/-- THE COLUMN SUMS: after the kernel the first result array holds, at channel `j`, the sum over all 50000 nodes of the
    activation. -/
theorem sums_2 (c : Dev nD) : (dat1 (F := Ideal) V c).arrAt 2 cfg1.N = totals V c :=
  (dat1 V c).arrAt_eq_of_cover 2 (totals V c) (flushed_2 V c) fun i =>
    ⟨t1_9, (flush1_2 t1_9).mpr rfl, by
      show i ∈ ((View.whole main_v44_0).slice (win1_2.rect t1_9)).set
      rw [View.set_slice_whole, Rect.mem_set_unit]
      intro a
      have h0 : (i 0 : Nat) < 64 := (i 0).isLt
      match a with
      | ⟨0, _⟩ =>
        show win1_2.index t1_9 0 * win1_2.size 0 ≤ (i 0 : Nat) ∧ (i 0 : Nat) < win1_2.index t1_9 0 * win1_2.size 0 + win1_2.xsize (grid1.coords t1_9) 0
        rw [show win1_2.index t1_9 0 * win1_2.size 0 = 0 from by decide +kernel, show win1_2.xsize (grid1.coords t1_9) 0 = 64 from by decide +kernel]
        omega⟩

/-- THE COLUMN SUMS OF SQUARES: after the kernel the second result array holds, at channel `j`, the sum over all 50000
    nodes of the squared activation. -/
theorem sums_3 (c : Dev nD) : (dat1 (F := Ideal) V c).arrAt 3 cfg1.N = totalSqs V c :=
  (dat1 V c).arrAt_eq_of_cover 3 (totalSqs V c) (flushed_3 V c) fun i =>
    ⟨t1_9, (flush1_3 t1_9).mpr rfl, by
      show i ∈ ((View.whole main_v44_1).slice (win1_3.rect t1_9)).set
      rw [View.set_slice_whole, Rect.mem_set_unit]
      intro a
      have h0 : (i 0 : Nat) < 64 := (i 0).isLt
      match a with
      | ⟨0, _⟩ =>
        show win1_3.index t1_9 0 * win1_3.size 0 ≤ (i 0 : Nat) ∧ (i 0 : Nat) < win1_3.index t1_9 0 * win1_3.size 0 + win1_3.xsize (grid1.coords t1_9) 0
        rw [show win1_3.index t1_9 0 * win1_3.size 0 = 0 from by decide +kernel, show win1_3.xsize (grid1.coords t1_9) 0 = 64 from by decide +kernel]
        omega⟩

/-- Both at once, in the form the later host lines read them. -/
theorem sums (c : Dev nD) :
    (dat1 (F := Ideal) V c).arrAt 2 cfg1.N = (fun j : S64.Idx => GcnNorm.colSum (V c main_v43) (V c main_arg3) (j 0))
    ∧ (dat1 (F := Ideal) V c).arrAt 3 cfg1.N = (fun j : S64.Idx => GcnNorm.colSumSq (V c main_v43) (V c main_arg3) (j 0)) :=
  ⟨sums_2 V c, sums_3 V c⟩

end Final

end Cert.KernelIdeal.Reduce

end
-- ==== Proof.RefValue.lean ====
/-
  The reference program's result, read at one entry, in closed form.

  Write A for the aggregated node features (50000 nodes by 64 channels; the aggregation itself is never opened),
  b for the bias, γ and β for the affine parameters.  On the host the reference forms, line by line,

      a[n, c]   = tanh (A[n, c] + b[c])                       the activation,
      μ[c]      = (0 + Σ_k a[k, c]) / 50000                   the column mean,
      d[n, c]   = a[n, c] − μ[c]                              the centred activation (formed twice),
      v[c]      = (0 + Σ_k d[k, c] · d[k, c]) / 50000         the centred variance,
      out[n, c] = γ[c] · d[n, c] · rsqrt (v[c] + ε) + β[c].

  Every per-channel vector reaches a 50000 × 64 array through two broadcasts (64 → 1 × 64 → 50000 × 64), so at the
  entry (n, c) it is read at the channel c alone; a column sum at the channel c runs over the entries (k, c), k a
  node.  The lemmas below read each line at an entry and name what stands there in the shared vocabulary: the
  activation, the column mean, the centred variance, and last the normalized result.  The divisor and the epsilon
  are never evaluated: each is the same bit pattern here and in the vocabulary.  The first host line, the product
  x · W, is read as the plain sum over the 128 inner indices.
-/
import proofs.«116307_j12292196401321_1_alg».proof.Proof.ReadPatched
import proofs.«116307_j12292196401321_1_alg».proof.Proof.Spec

noncomputable section

namespace Cert.ReferenceIdeal.RefValue

open Cert.ReferenceIdeal Cert.ReferenceIdeal.Gen Idealize.ShloMosaic Idealize.ShloMosaic.StableHlo
open Idealize.ShloMosaic.ValueIdx

/-! ## The three parameter vectors, broadcast to the node-by-channel shape -/

/-- The bias, laid out as a row and repeated down the nodes: at (n, c) it is b[c]. -/
theorem bias_entry (x3 : (⟨S64, .f32⟩ : BufTy).Contents (Elt Ideal)) (n : Fin 50000) (c : Fin 64) :
    ReadP.val_main_v45 (F := Ideal) x3 (ix2 n c) = x3 (ix1 c) := by
  rw [ReadP.val_main_v45_apply, ReadP.val_main_v44_apply]
  exact congrArg x3 (funext fun a => Fin.ext (by match a with | ⟨0, _⟩ => rfl))

/-- The scale γ, laid out as a row and repeated down the nodes: at (n, c) it is γ[c]. -/
theorem gamma_entry (x4 : (⟨S64, .f32⟩ : BufTy).Contents (Elt Ideal)) (n : Fin 50000) (c : Fin 64) :
    ReadP.val_main_v62 (F := Ideal) x4 (ix2 n c) = x4 (ix1 c) := by
  rw [ReadP.val_main_v62_apply, ReadP.val_main_v61_apply]
  exact congrArg x4 (funext fun a => Fin.ext (by match a with | ⟨0, _⟩ => rfl))

/-- The shift β, laid out as a row and repeated down the nodes: at (n, c) it is β[c]. -/
theorem beta_entry (x5 : (⟨S64, .f32⟩ : BufTy).Contents (Elt Ideal)) (n : Fin 50000) (c : Fin 64) :
    ReadP.val_main_v71 (F := Ideal) x5 (ix2 n c) = x5 (ix1 c) := by
  rw [ReadP.val_main_v71_apply, ReadP.val_main_v70_apply]
  exact congrArg x5 (funext fun a => Fin.ext (by match a with | ⟨0, _⟩ => rfl))

/-! ## The activation and its column mean -/

/-- The activation at node n, channel c: the hyperbolic tangent of the aggregated feature plus the channel's bias. -/
theorem act_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (n : Fin 50000) (c : Fin 64) :
    ReadP.val_main_v47 (F := Ideal) x0 x1 x2 x3 (ix2 n c)
      = GcnNorm.act (ReadP.val_main_v43 (F := Ideal) x0 x1 x2) x3 n c := by
  rw [ReadP.val_main_v47_apply, ReadP.val_main_v46_apply, bias_entry]
  unfold GcnNorm.act
  simp only [Ideal.hostUnary_tanh_def, Ideal.addf_def]

/-- The column sum at channel c reads, for the node k, the entry (k, c). -/
theorem col_idx (c : Fin 64) (k : Fin 50000) : ReadP.idx_main_v48 (ix1 c) k = ix2 k c :=
  funext fun a => Fin.ext (by match a with | ⟨0, _⟩ => rfl | ⟨1, _⟩ => rfl)

/-- The first column sum: zero plus the activations of channel c over all nodes, that is their sum. -/
theorem colSum_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (c : Fin 64) :
    ReadP.val_main_v48 (F := Ideal) x0 x1 x2 x3 (ix1 c)
      = GcnNorm.colSum (ReadP.val_main_v43 (F := Ideal) x0 x1 x2) x3 c := by
  rw [ReadP.val_main_v48_apply, ReadP.val_main_cst_9_apply, Ideal.ofBits_def, Ideal.ofBits_zero_f32, zero_add]
  unfold GcnNorm.colSum
  refine Finset.sum_congr rfl fun k _ => ?_
  rw [col_idx]
  exact act_entry x0 x1 x2 x3 k c

/-- The column mean at channel c: the column sum over the divisor's pattern. -/
theorem mean_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (c : Fin 64) :
    ReadP.val_main_v50 (F := Ideal) x0 x1 x2 x3 (ix1 c)
      = GcnNorm.mean (ReadP.val_main_v43 (F := Ideal) x0 x1 x2) x3 c := by
  rw [ReadP.val_main_v50_apply, colSum_entry, ReadP.val_main_v49_apply, ReadP.val_main_cst_10_apply]
  rfl

/-- The mean repeated down the nodes, as the variance's line reads it: at (n, c) it is the mean of channel c. -/
theorem meanA_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (n : Fin 50000) (c : Fin 64) :
    ReadP.val_main_v52 (F := Ideal) x0 x1 x2 x3 (ix2 n c)
      = GcnNorm.mean (ReadP.val_main_v43 (F := Ideal) x0 x1 x2) x3 c := by
  rw [ReadP.val_main_v52_apply, ReadP.val_main_v51_apply]
  refine Eq.trans (congrArg (ReadP.val_main_v50 (F := Ideal) x0 x1 x2 x3) ?_) (mean_entry x0 x1 x2 x3 c)
  exact funext fun a => Fin.ext (by match a with | ⟨0, _⟩ => rfl)

/-- The mean repeated down the nodes a second time, as the result's line reads it: the same number. -/
theorem meanB_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (n : Fin 50000) (c : Fin 64) :
    ReadP.val_main_v59 (F := Ideal) x0 x1 x2 x3 (ix2 n c)
      = GcnNorm.mean (ReadP.val_main_v43 (F := Ideal) x0 x1 x2) x3 c := by
  rw [ReadP.val_main_v59_apply, ReadP.val_main_v58_apply]
  refine Eq.trans (congrArg (ReadP.val_main_v50 (F := Ideal) x0 x1 x2 x3) ?_) (mean_entry x0 x1 x2 x3 c)
  exact funext fun a => Fin.ext (by match a with | ⟨0, _⟩ => rfl)

/-! ## The centred variance -/

/-- The centred activation the variance is formed from: a[n, c] − μ[c]. -/
theorem centredA_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (n : Fin 50000) (c : Fin 64) :
    ReadP.val_main_v53 (F := Ideal) x0 x1 x2 x3 (ix2 n c)
      = GcnNorm.act (ReadP.val_main_v43 (F := Ideal) x0 x1 x2) x3 n c
        - GcnNorm.mean (ReadP.val_main_v43 (F := Ideal) x0 x1 x2) x3 c := by
  rw [ReadP.val_main_v53_apply, act_entry, meanA_entry]
  rfl

/-- The centred activation the result is formed from: the same difference. -/
theorem centredB_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (n : Fin 50000) (c : Fin 64) :
    ReadP.val_main_v60 (F := Ideal) x0 x1 x2 x3 (ix2 n c)
      = GcnNorm.act (ReadP.val_main_v43 (F := Ideal) x0 x1 x2) x3 n c
        - GcnNorm.mean (ReadP.val_main_v43 (F := Ideal) x0 x1 x2) x3 c := by
  rw [ReadP.val_main_v60_apply, act_entry, meanB_entry]
  rfl

/-- The second column sum at channel c reads, for the node k, the entry (k, c). -/
theorem col_idx' (c : Fin 64) (k : Fin 50000) : ReadP.idx_main_v55 (ix1 c) k = ix2 k c :=
  funext fun a => Fin.ext (by match a with | ⟨0, _⟩ => rfl | ⟨1, _⟩ => rfl)

/-- The variance at channel c: zero plus the squared centred activations of the channel over all nodes, over the
    divisor's pattern — the centred variance. -/
theorem var_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (c : Fin 64) :
    ReadP.val_main_v57 (F := Ideal) x0 x1 x2 x3 (ix1 c)
      = GcnNorm.varCen (ReadP.val_main_v43 (F := Ideal) x0 x1 x2) x3 c := by
  rw [ReadP.val_main_v57_apply, ReadP.val_main_v55_apply, ReadP.val_main_cst_11_apply, Ideal.ofBits_def,
    Ideal.ofBits_zero_f32, zero_add, ReadP.val_main_v56_apply, ReadP.val_main_cst_12_apply]
  unfold GcnNorm.varCen
  refine congrArg (fun s => Ideal.div s GcnNorm.cnt) (Finset.sum_congr rfl fun k _ => ?_)
  rw [col_idx', ReadP.val_main_v54_apply, centredA_entry]
  rfl

/-- The reciprocal root of the variance plus epsilon, repeated down the nodes: at (n, c) it is that of channel c. -/
theorem rsqrt_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (n : Fin 50000) (c : Fin 64) :
    ReadP.val_main_v68 (F := Ideal) x0 x1 x2 x3 (ix2 n c)
      = Ideal.rsqrt (GcnNorm.varCen (ReadP.val_main_v43 (F := Ideal) x0 x1 x2) x3 c + GcnNorm.eps) := by
  rw [ReadP.val_main_v68_apply, ReadP.val_main_v67_apply]
  have hc : ReadP.idx_main_v67 (ReadP.idx_main_v68 (ix2 n c)) = ix1 c :=
    funext fun a => Fin.ext (by match a with | ⟨0, _⟩ => rfl)
  rw [hc, ReadP.val_main_v66_apply, ReadP.val_main_v65_apply, var_entry, ReadP.val_main_v64_apply,
    ReadP.val_main_cst_13_apply]
  rfl

/-! ## The result -/

/-- The reference's result at node n, channel c: the normalized activation with the centred variance. -/
theorem ref_entry (x0 : (⟨S50000x128, .f32⟩ : BufTy).Contents (Elt Ideal)) (x1 : (⟨S2x800000, .i32⟩ : BufTy).Contents (Elt Ideal))
    (x2 : (⟨S128x64, .f32⟩ : BufTy).Contents (Elt Ideal)) (x3 : (⟨S64, .f32⟩ : BufTy).Contents (Elt Ideal))
    (x4 : (⟨S64, .f32⟩ : BufTy).Contents (Elt Ideal)) (x5 : (⟨S64, .f32⟩ : BufTy).Contents (Elt Ideal))
    (n : Fin 50000) (c : Fin 64) :
    ReadP.val_main_v72 (F := Ideal) x0 x1 x2 x3 x4 x5 (ix2 n c)
      = GcnNorm.normed (GcnNorm.varCen (ReadP.val_main_v43 (F := Ideal) x0 x1 x2) x3)
          (ReadP.val_main_v43 (F := Ideal) x0 x1 x2) x3 x4 x5 n c := by
  rw [ReadP.val_main_v72_apply, ReadP.val_main_v69_apply, ReadP.val_main_v63_apply, gamma_entry, centredB_entry,
    rsqrt_entry, beta_entry]
  rfl

/-! ## The first host line: the product x · W -/

/-- Entry (p, q) of the product is the plain sum, over the 128 inner indices k, of x[p, k] · W[k, q]. -/
theorem ref_product (x0 : (⟨S50000x128, .f32⟩ : BufTy).Contents (Elt Ideal)) (x2 : (⟨S128x64, .f32⟩ : BufTy).Contents (Elt Ideal)) :
    ReadP.val_main_v0 (F := Ideal) x0 x2
      = fun i => ∑ k : Fin 128, x0 (ix2 (i 0) k) * x2 (ix2 k (i 1)) := by
  funext i
  rw [ReadP.val_main_v0_apply]
  refine Finset.sum_congr rfl fun k _ => ?_
  have el : ReadP.lidx_main_v0 i k = ix2 (i 0) k :=
    funext fun a => Fin.ext (by match a with | ⟨0, _⟩ => rfl | ⟨1, _⟩ => rfl)
  have er : ReadP.ridx_main_v0 i k = ix2 k (i 1) :=
    funext fun a => Fin.ext (by match a with | ⟨0, _⟩ => rfl | ⟨1, _⟩ => rfl)
  exact congrArg₂ (fun a b => x0 a * x2 b) el er

end Cert.ReferenceIdeal.RefValue
-- ==== Proof.Whole.lean ====
/-
  Both programs' results as one function of the launched arrays.

  Write x, e, W, b, γ, β for the six launched arrays.  Put h = x · W (entry (n, q) is Σ_k x[n, k] · W[k, q]),
  A = agg h e (the aggregation over the edges), a[n, c] = tanh (A[n, c] + b[c]), μ the column mean of a.  The result
  both programs are shown to compute is

      γ[c] · (a[n, c] − μ[c]) · rsqrt (v[c] + ε) + β[c]

  with v the variance by raw moments.

  THE KERNEL.  Its first launch leaves h (ten row blocks, each a product of a block of x with W).  Its host lines turn h
  into A.  Its second launch leaves the column sums of a and of a² (accumulated over ten row blocks); the host lines
  divide by the count and subtract the squared mean: μ and the raw-moment variance.  Its third launch writes the
  displayed expression block by block.  Chaining what each launch finds with what the one before left gives the
  displayed function.

  THE REFERENCE computes h as one product, A by the same lines, and the displayed expression with the centred
  variance; its stages read at an entry give exactly that.  The two variances are one extended real (a hyperbolic
  tangent is a real number), which is the whole difference between the programs.
-/
import proofs.«116307_j12292196401321_1_alg».proof.Proof.KernelRun
import proofs.«116307_j12292196401321_1_alg».proof.Proof.Between
import proofs.«116307_j12292196401321_1_alg».proof.Proof.AggregateKernel
import proofs.«116307_j12292196401321_1_alg».proof.Proof.Project
import proofs.«116307_j12292196401321_1_alg».proof.Proof.Apply
import proofs.«116307_j12292196401321_1_alg».proof.Proof.Reduce
import proofs.«116307_j12292196401321_1_alg».proof.Proof.RefValue
import proofs.«116307_j12292196401321_1_alg».proof.Proof.Spec

set_option maxRecDepth 16384

noncomputable section

namespace Cert.KernelIdeal.Whole

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-- The projection h = x · W, entry by entry. -/
def proj (x : S50000x128.Idx → EReal) (w : S128x64.Idx → EReal) : S50000x64.Idx → EReal :=
  fun i => ∑ k : Fin 128, x (ix2 (i 0) k) * w (ix2 k (i 1))

/-- The aggregated features, from the launched arrays. -/
def feats : S50000x64.Idx → EReal :=
  Aggregate.agg (F := Ideal) (proj (m ((c : Thread nD τ).loc main_arg0)) (m ((c : Thread nD τ).loc main_arg2))) (m ((c : Thread nD τ).loc main_arg1))

/-- The result both programs are shown to compute: the activation of the aggregated features, normalized over the
    nodes with the variance by raw moments, scaled and shifted. -/
def result : S50000x64.Idx → EReal := fun i =>
  GcnNorm.normed (GcnNorm.varRaw (feats m c) (m ((c : Thread nD τ).loc main_arg3))) (feats m c)
    (m ((c : Thread nD τ).loc main_arg3)) (m ((c : Thread nD τ).loc main_arg4)) (m ((c : Thread nD τ).loc main_arg5)) (i 0) (i 1)

/-- The first launch leaves the projection. -/
theorem proj_at : (W1 m ρ c (Proc.devRef .tc main_v0) : S50000x64.Idx → EReal)
    = proj (m ((c : Thread nD τ).loc main_arg0)) (m ((c : Thread nD τ).loc main_arg2)) :=
  (Between.product_is m ρ c).trans (Project.product_array (V0 m ρ) c)

/-- The second launch finds the aggregated features. -/
theorem feats_at2 : (W4 m ρ c (Proc.devRef .tc main_v43) : S50000x64.Idx → EReal) = feats m c :=
  (Aggregate.kernel_agg m ρ c).trans (congrArg (fun h => Aggregate.agg (F := Ideal) h (m ((c : Thread nD τ).loc main_arg1))) (proj_at m ρ c))

/-- The second launch leaves the column sums of the activation and of its square. -/
theorem sum_at (j : S64.Idx) : (W5 m ρ c (Proc.devRef .tc main_v44_0) : S64.Idx → EReal) j
    = GcnNorm.colSum (feats m c) (m ((c : Thread nD τ).loc main_arg3)) (j 0) := by
  rw [Between.sum_is, (Reduce.sums (V4 m ρ) c).1]
  show GcnNorm.colSum (W4 m ρ c (Proc.devRef .tc main_v43)) (W4 m ρ c (Proc.devRef .tc main_arg3)) (j 0) = _
  rw [feats_at2, Between.bias_at2]

theorem sumsq_at (j : S64.Idx) : (W5 m ρ c (Proc.devRef .tc main_v44_1) : S64.Idx → EReal) j
    = GcnNorm.colSumSq (feats m c) (m ((c : Thread nD τ).loc main_arg3)) (j 0) := by
  rw [Between.sumsq_is, (Reduce.sums (V4 m ρ) c).2]
  show GcnNorm.colSumSq (W4 m ρ c (Proc.devRef .tc main_v43)) (W4 m ρ c (Proc.devRef .tc main_arg3)) (j 0) = _
  rw [feats_at2, Between.bias_at2]

/-- The third launch finds the column mean and the variance by raw moments. -/
theorem mean_at3 : (W6 m ρ c (Proc.devRef .tc main_v46) : S64.Idx → EReal)
    = fun j => GcnNorm.mean (feats m c) (m ((c : Thread nD τ).loc main_arg3)) (j 0) :=
  funext fun j => by rw [Between.mean_entry, sum_at]; rfl

theorem var_at3 : (W6 m ρ c (Proc.devRef .tc main_v50) : S64.Idx → EReal)
    = fun j => GcnNorm.varRaw (feats m c) (m ((c : Thread nD τ).loc main_arg3)) (j 0) :=
  funext fun j => by rw [Between.var_entry, sum_at, sumsq_at]; rfl

/-- The program's result array, as a function of the launched arrays. -/
theorem result_at : (W7 m ρ c (Proc.devRef .tc main_v51) : S50000x64.Idx → EReal) = result m c := by
  have hA : V6 m ρ c main_v43 = feats m c := (Between.agg_kept m ρ c).trans (feats_at2 m ρ c)
  have hb : V6 m ρ c main_arg3 = m ((c : Thread nD τ).loc main_arg3) := Between.bias_at3 m ρ c
  have hg : V6 m ρ c main_arg4 = m ((c : Thread nD τ).loc main_arg4) := Between.scale_at3 m ρ c
  have hs : V6 m ρ c main_arg5 = m ((c : Thread nD τ).loc main_arg5) := Between.shift_at3 m ρ c
  have hμ : V6 m ρ c main_v46 = fun j => GcnNorm.mean (feats m c) (m ((c : Thread nD τ).loc main_arg3)) (j 0) :=
    mean_at3 m ρ c
  have hv : V6 m ρ c main_v50 = fun j => GcnNorm.varRaw (feats m c) (m ((c : Thread nD τ).loc main_arg3)) (j 0) :=
    var_at3 m ρ c
  rw [Between.result_is, Apply.applied_array (V6 m ρ) c, hA, hb, hg, hs, hμ, hv]
  rfl

end Cert.KernelIdeal.Whole

namespace Cert.ReferenceIdeal.Whole

open Cert.ReferenceIdeal
open Idealize.ShloMosaic Idealize.ShloMosaic.TcCoe Idealize.SL.Sem Idealize.ShloMosaic.ValueIdx

/-- The reference's result, as a function of ITS launched arrays: the displayed expression with the centred variance,
    over the aggregation of the plain product. -/
theorem result_at (m' : (ℓ : Loc nD τ sig) → Buf (Elt Ideal) ℓ) (c : Dev nD) :
    (Cert.ReferenceIdeal.ValueP.res_main_v72 (F := Ideal) m' c : S50000x64.Idx → EReal) = fun i =>
      GcnNorm.normed
        (GcnNorm.varCen
          (Cert.KernelIdeal.Aggregate.agg (F := Ideal)
            (Cert.KernelIdeal.Whole.proj (m' ((c.tc : Thread nD τ).loc main_arg0)) (m' ((c.tc : Thread nD τ).loc main_arg2)))
            (m' ((c.tc : Thread nD τ).loc main_arg1)))
          (m' ((c.tc : Thread nD τ).loc main_arg3)))
        (Cert.KernelIdeal.Aggregate.agg (F := Ideal)
          (Cert.KernelIdeal.Whole.proj (m' ((c.tc : Thread nD τ).loc main_arg0)) (m' ((c.tc : Thread nD τ).loc main_arg2)))
          (m' ((c.tc : Thread nD τ).loc main_arg1)))
        (m' ((c.tc : Thread nD τ).loc main_arg3)) (m' ((c.tc : Thread nD τ).loc main_arg4)) (m' ((c.tc : Thread nD τ).loc main_arg5))
        (i 0) (i 1) := by
  rw [Cert.ReferenceIdeal.ReadP.val_main_v72_eq]
  funext i
  obtain ⟨n, q, rfl⟩ : ∃ (n : Fin 50000) (q : Fin 64), i = ix2 n q := ⟨i 0, i 1, eq_ix2 i⟩
  rw [Cert.ReferenceIdeal.RefValue.ref_entry, Cert.KernelIdeal.Aggregate.ref_agg, Cert.ReferenceIdeal.RefValue.ref_product]
  rfl

end Cert.ReferenceIdeal.Whole

end
-- ==== Proof.lean ====
/-
  The certificate: a graph convolution followed by tanh and batch normalization, as a Pallas pipeline, against its
  jnp reference, over the extended reals.

  Both programs compute, from node features x, an edge list e, weights W, a bias b and affine parameters γ, β:
  h = x · W; A, the symmetric-normalized aggregation of h over the edges with self loops; a = tanh (A + b); the column
  mean μ and a variance v of a over the 50000 nodes; and the result γ · (a − μ) · rsqrt (v + ε) + β.  The kernel takes
  the variance by raw moments, Σa²/N − μ², from two sums it accumulates in one pass; the reference takes the centred
  variance Σ(a − μ)²/N.  Every a is a hyperbolic tangent, hence a real number at every extended real, so both variances
  are the two textbook forms of one real number, and the results agree entry by entry.  The precondition is never
  opened: no step of the argument needs the inputs finite.

  The five parts of the claim:
  * the three frames — the two kernel programs' from their run through the three launches, the reference's from its
    run as a list of host operations, the result dropped;
  * the idealized kernel is the kernel's own text (the ideal pass rewrote nothing): nothing to state;
  * the two idealized programs end with the same result array: the kernel's run ends at the function `result` of the
    launched arrays (Proof/Whole.lean), the reference's at the same expression with the centred variance, and the two
    variances are one extended real (Proof/Spec.lean).
-/
import proofs.«116307_j12292196401321_1_alg».proof.Defs
import proofs.«116307_j12292196401321_1_alg».proof.Proof.Gen.Kernel
import proofs.«116307_j12292196401321_1_alg».proof.Proof.Gen.Kernel.Skeleton
import proofs.«116307_j12292196401321_1_alg».proof.Proof.Gen.Kernel.Launch
import proofs.«116307_j12292196401321_1_alg».proof.Proof.Gen.Kernel.Points
import proofs.«116307_j12292196401321_1_alg».proof.Proof.Gen.Kernel.Frame
import proofs.«116307_j12292196401321_1_alg».proof.Proof.Gen.KernelIdeal
import proofs.«116307_j12292196401321_1_alg».proof.Proof.Gen.KernelIdeal.Skeleton
import proofs.«116307_j12292196401321_1_alg».proof.Proof.Gen.KernelIdeal.Launch
import proofs.«116307_j12292196401321_1_alg».proof.Proof.Gen.KernelIdeal.Points
import proofs.«116307_j12292196401321_1_alg».proof.Proof.Gen.KernelIdeal.Frame
import proofs.«116307_j12292196401321_1_alg».proof.Proof.Gen.ReferenceIdeal
import proofs.«116307_j12292196401321_1_alg».proof.Proof.Gen.Pre_finite_inputs
import proofs.«116307_j12292196401321_1_alg».proof.Proof.RunPatched
import proofs.«116307_j12292196401321_1_alg».proof.Proof.ReadPatched
import proofs.«116307_j12292196401321_1_alg».proof.Proof.Whole
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs, its arguments unchanged. -/
theorem frame_kernel : Cert.frame_Kernel := fun m ρ _ => Cert.Kernel.Gen.frame m ρ

/-- The idealized kernel runs, its arguments unchanged. -/
theorem frame_kernelIdeal : Cert.frame_KernelIdeal := fun m ρ _ => Cert.KernelIdeal.Gen.frame m ρ

/-- The idealized reference runs, its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both idealized programs end with the result array at `result` of the
    kernel's launched arrays: the kernel by its run and `Whole.result_at`; the reference by its run, its closed form
    over its own arrays, the agreement of the arrays, and the equality of the two variances. -/
theorem algebraic : Cert.algebraic_KernelIdeal_ReferenceIdeal := by
  intro m ρ m' ρ' _ hagree
  refine ⟨fun c => Cert.KernelIdeal.Whole.result m c, ?_, ?_⟩
  · exact (θ_run Cert.KernelIdeal.defs _ _).mono
      (fun _ h c => ⟨(h c).1.trans (Cert.KernelIdeal.Whole.result_at m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.Whole.result_at m' c, (hagree c).1, (hagree c).2.1, (hagree c).2.2.1, (hagree c).2.2.2.1,
      (hagree c).2.2.2.2.1, (hagree c).2.2.2.2.2]
    funext i
    exact (GcnNorm.normed_varRaw_eq _ _ _ _ (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
